-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part3 {F : FTy → Type} [FloatOps F] (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  main_v53

def fn_part2 {F : FTy → Type} [FloatOps F] (main_arg8 : FVec F S128x128 .f32) (main_arg9 : FVec F S256x128 .f32) (main_arg10 : FVec F S128 .f32) (main_arg11 : FVec F S256x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_v48 main_v49 main_v50

def fn_part1 {F : FTy → Type} [FloatOps F] (main_arg5 : FVec F S128x128 .f32) (main_arg6 : FVec F S128x128 .f32) (main_arg7 : FVec F S128 .f32) (main_arg8 : FVec F S128x128 .f32) (main_arg9 : FVec F S256x128 .f32) (main_arg10 : FVec F S128 .f32) (main_arg11 : FVec F S256x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S50000x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S256x128 .f32) (main_arg10 : FVec F S128 .f32) (main_arg11 : FVec F S256x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg2
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S1x128 : Shape := ⟨2, ![1, 128]⟩
abbrev S50000x256 : Shape := ⟨2, ![50000, 256]⟩
abbrev S5000x128 : Shape := ⟨2, ![5000, 128]⟩
abbrev S5000x256 : Shape := ⟨2, ![5000, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩

abbrev nBuf : Space → Nat
  | .hbm => 47
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S256x128, .f32⟩
  | .hbm, ⟨10, _⟩ => ⟨S128, .f32⟩
  | .hbm, ⟨11, _⟩ => ⟨S256x128, .f32⟩
  | .hbm, ⟨12, _⟩ => ⟨S1x128, .f32⟩
  | .hbm, ⟨13, _⟩ => ⟨S1x128, .f32⟩
  | .hbm, ⟨14, _⟩ => ⟨S50000x128, .f32⟩
  | .hbm, ⟨15, _⟩ => ⟨S50000x256, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x256, .f32⟩
  | .hbm, ⟨29, _⟩ => ⟨S_, .f32⟩
  | .hbm, ⟨30, _⟩ => ⟨S50000x256, .f32⟩
  | .hbm, ⟨31, _⟩ => ⟨S800000x1, .i32⟩
  | .hbm, ⟨32, _⟩ => ⟨S50000x256, .f32⟩
  | .hbm, ⟨33, _⟩ => ⟨S_, .f32⟩
  | .hbm, ⟨34, _⟩ => ⟨S800000, .f32⟩
  | .hbm, ⟨35, _⟩ => ⟨S_, .f32⟩
  | .hbm, ⟨36, _⟩ => ⟨S50000, .f32⟩
  | .hbm, ⟨37, _⟩ => ⟨S800000x1, .i32⟩
  | .hbm, ⟨38, _⟩ => ⟨S50000, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000x1, .f32⟩
  | .hbm, ⟨43, _⟩ => ⟨S50000x256, .f32⟩
  | .hbm, ⟨44, _⟩ => ⟨S50000x256, .f32⟩
  | .hbm, ⟨45, _⟩ => ⟨S1x128, .f32⟩
  | .hbm, ⟨46, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S128x128, .f32⟩
  | .local _ .vmem, ⟨10, _⟩ => ⟨S5000x128, .f32⟩
  | .local _ .vmem, ⟨11, _⟩ => ⟨S5000x128, .f32⟩
  | .local _ .vmem, ⟨12, _⟩ => ⟨S5000x256, .f32⟩
  | .local _ .vmem, ⟨13, _⟩ => ⟨S5000x256, .f32⟩
  | .local _ .vmem, ⟨14, _⟩ => ⟨S5000x256, .f32⟩
  | .local _ .vmem, ⟨15, _⟩ => ⟨S5000x256, .f32⟩
  | .local _ .vmem, ⟨16, _⟩ => ⟨S5000x256, .f32⟩
  | .local _ .vmem, ⟨17, _⟩ => ⟨S5000x256, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S256x128, .f32⟩
  | .local _ .vmem, ⟨23, _⟩ => ⟨S1x128, .f32⟩
  | .local _ .vmem, ⟨24, _⟩ => ⟨S256x128, .f32⟩
  | .local _ .vmem, ⟨25, _⟩ => ⟨S5000x128, .f32⟩
  | .local _ .vmem, ⟨26, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_v8 : Ref sig .tc := ⟨.hbm, 22, rfl⟩
abbrev main_c_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg7_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem7_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S5000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  concatenates_S5000x128_S5000x128_S5000x256_d1 : Shape.Concatenates [S5000x128, S5000x128] S5000x256 1
  inb_S5000x256_S5000x256_0_0 : ∀ a, (![0, 0] : Fin 2 → Nat) a + S5000x256.size a ≤ S5000x256.size a
  h_S5000x256 : 0 < S5000x256.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  shapeCasts_S5000x128_S5000x128 : S5000x128.ShapeCasts S5000x128
  dot_S5000x128_S128x128_S5000x128_1_0_0_1_n_n_wf : DotDims.WF S5000x128 S128x128 S5000x128 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S50000x128.size a
  hwx0_8 : ∀ i : grid0.Coords, EltTy.bits .f32 = 32 ∨ (Rect.block (s := S50000x128) S5000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x256.size a ≤ S50000x256.size a
  hwx0_9 : ∀ i : grid0.Coords, EltTy.bits .f32 = 32 ∨ (Rect.block (s := S50000x256) S5000x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .f32 = 32 ∨ (Rect.block (s := S50000x256) S5000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x128.size a ≤ S256x128.size a
  hwx1_6 : ∀ i : grid1.Coords, EltTy.bits .f32 = 32 ∨ (Rect.block (s := S256x128) S256x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2_0) S5000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v2_1) S5000x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v25) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S256x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S1x128 : Shape := ⟨2, ![1, 128]⟩
abbrev S_ : Shape := ⟨0, ![]⟩
abbrev S50000x256 : Shape := ⟨2, ![50000, 256]⟩
abbrev S1x800000 : Shape := ⟨2, ![1, 800000]⟩
abbrev S800000 : Shape := ⟨1, ![800000]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩

abbrev nBuf : Space → Nat
  | .hbm => 83
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S256x128, .f32⟩
  | .hbm, ⟨10, _⟩ => ⟨S128, .f32⟩
  | .hbm, ⟨11, _⟩ => ⟨S256x128, .f32⟩
  | .hbm, ⟨12, _⟩ => ⟨S50000x128, .f32⟩
  | .hbm, ⟨13, _⟩ => ⟨S1x128, .f32⟩
  | .hbm, ⟨14, _⟩ => ⟨S50000x128, .f32⟩
  | .hbm, ⟨15, _⟩ => ⟨S50000x128, .f32⟩
  | .hbm, ⟨16, _⟩ => ⟨S50000x128, .f32⟩
  | .hbm, ⟨17, _⟩ => ⟨S50000x128, .f32⟩
  | .hbm, ⟨18, _⟩ => ⟨S50000x128, .f32⟩
  | .hbm, ⟨19, _⟩ => ⟨S50000x128, .f32⟩
  | .hbm, ⟨20, _⟩ => ⟨S_, .f32⟩
  | .hbm, ⟨21, _⟩ => ⟨S50000x128, .f32⟩
  | .hbm, ⟨22, _⟩ => ⟨S50000x128, .f32⟩
  | .hbm, ⟨23, _⟩ => ⟨S_, .f32⟩
  | .hbm, ⟨24, _⟩ => ⟨S50000x128, .f32⟩
  | .hbm, ⟨25, _⟩ => ⟨S50000x128, .f32⟩
  | .hbm, ⟨26, _⟩ => ⟨S50000x128, .f32⟩
  | .hbm, ⟨27, _⟩ => ⟨S1x128, .f32⟩
  | .hbm, ⟨28, _⟩ => ⟨S50000x128, .f32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S_, .f32⟩
  | .hbm, ⟨35, _⟩ => ⟨S50000x128, .f32⟩
  | .hbm, ⟨36, _⟩ => ⟨S50000x128, .f32⟩
  | .hbm, ⟨37, _⟩ => ⟨S_, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x256, .f32⟩
  | .hbm, ⟨42, _⟩ => ⟨S1x800000, .i32⟩
  | .hbm, ⟨43, _⟩ => ⟨S800000, .i32⟩
  | .hbm, ⟨44, _⟩ => ⟨S1x800000, .i32⟩
  | .hbm, ⟨45, _⟩ => ⟨S800000, .i32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x256, .f32⟩
  | .hbm, ⟨55, _⟩ => ⟨S_, .f32⟩
  | .hbm, ⟨56, _⟩ => ⟨S50000x256, .f32⟩
  | .hbm, ⟨57, _⟩ => ⟨S800000x1, .i32⟩
  | .hbm, ⟨58, _⟩ => ⟨S50000x256, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x256, .f32⟩
  | .hbm, ⟨70, _⟩ => ⟨S50000x256, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c : Ref sig .tc := ⟨.hbm, 46, rfl⟩
abbrev main_v30 : Ref sig .tc := ⟨.hbm, 47, rfl⟩
abbrev main_v31 : Ref sig .tc := ⟨.hbm, 48, rfl⟩
abbrev main_c_3 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_4 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_8 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  concatenates_S50000x128_S50000x128_S50000x256_d1 : Shape.Concatenates [S50000x128, S50000x128] S50000x256 1
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  dot_S50000x128_S128x128_S50000x128_1_0_0_1_n_n_wf : DotDims.WF S50000x128 S128x128 S50000x128 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.TwoStageRun.lean ====
/-
  The run of the two-stage program with its result array named.

  The program is a stretch of host operations, the gates' pallas_call, a second stretch of host operations (the
  neighbour mean), and the blending pallas_call. Every weakly fair execution terminates, and in every final state each
  buffer that is not scoped to a region holds what the fold of those four segments leaves in it: the launch contents
  carried through the first stretch, the first call's write-backs, the second stretch, the second call's
  write-backs. Read at the result buffer this names the array the certificate's value claim is about; read at the
  twelve argument buffers it gives back the launch contents.
-/
import proofs.«103373_j38147899523553_1_alg».proof.Proof.Gen.KernelIdeal.Frame

set_option maxRecDepth 16384

noncomputable section

namespace Cert.KernelIdeal.TwoStage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at what the last segment boundary holds there
    and the twelve arguments as launched. -/
theorem run_arrays : θ_run defs (onTc (τ := τ) (main (F := F))) ⟨m, fun _ => 0, ρ⟩ (fun r => ∀ c : Dev nD,
      r.2.mem ((c.tc : Thread nD τ).loc main_v27) = W4 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v27 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.TwoStage

end
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.LibRowwise.lean ====
/-
  Arrays handled row by row.

  A two-dimensional array `a` with `R` rows *is the rows `f p` of `b`* (`RowsOf f a b`) when
  `a (p, c) = b (f p, c)` for every row `p` and column `c`; a block of consecutive rows of a taller array is the
  example to have in mind (`f p = first + p`). Every operation that treats each row on its own carries the relation
  from its operands to its result:

  * a unit-stride slice of columns `[o, o + w)` (`RowsOf.slice`);
  * the broadcast of a one-column array along the columns, the shorter array's in the vector form
    (`broadcastTo`) and the taller one's in the host's form (`broadcastInDim … ![0, 1]`) (`RowsOf.bcast`);
  * a pointwise product (`RowsOf.mulf`);
  * a concatenation of pieces along the columns, through `concatCols_ix2`: at column `k` inside the span
    `[pre, pre + w)` of piece `n`, the concatenation is that piece at column `k - pre` of the same row.

  Each operation is first read at an index `(p, c)` given by its two coordinates (`slice_ix2`, `bcastTo_ix2`,
  `bcastInDim_ix2`), in any element type.
-/
import Idealize.ShloMosaic.Lib.Pipeline.Value
import Idealize.ShloMosaic.Lib.ValueIdx

noncomputable section

namespace Cert.Lib.Rowwise

open Idealize.ShloMosaic Idealize.ShloMosaic.ValueIdx

variable {α : Type}

/-- The shape of an array of `R` rows and `w` columns. -/
abbrev Sh2 (R w : Nat) : Shape := ⟨2, ![R, w]⟩

/-- `a` is the rows `f p` of `b`: entry `(p, c)` of `a` is entry `(f p, c)` of `b`. -/
def RowsOf {R R' w : Nat} (f : Fin R → Fin R') (a : (Sh2 R w).Idx → α) (b : (Sh2 R' w).Idx → α) : Prop :=
  ∀ (p : Fin R) (c : Fin w), a (ix2 p c) = b (ix2 (f p) c)

/-- Columns `[o, o + w)` of `a`, read at `(p, c)`: `a` at `(p, o + c)`. -/
theorem slice_ix2 {R W w : Nat} (o : Nat) (a : (Sh2 R W).Idx → α) (h : (Sh2 R W).Slices ![0, o] (Sh2 R w))
    (p : Fin R) (c : Fin w) (hc : o + c.val < W) :
    extractStridedSlice (Sh2 R w) ![0, o] a h (ix2 p c) = a (ix2 p ⟨o + c.val, hc⟩) :=
  extractStridedSlice_apply ![0, o] a h (ix2 p c) (ix2 p ⟨o + c.val, hc⟩) (fun d => match d with
    | ⟨0, _⟩ => by show p.val = 0 + p.val; omega
    | ⟨1, _⟩ => rfl)

/-- A one-column array spread over `w` columns (the vector form), read at `(p, c)`: its entry in row `p`. -/
theorem bcastTo_ix2 {R w : Nat} (a : (Sh2 R 1).Idx → α) (h : (Sh2 R 1).Broadcasts (Sh2 R w)) (p : Fin R) (c : Fin w) :
    broadcastTo (Sh2 R w) a h (ix2 p c) = a (ix2 p 0) :=
  broadcastTo_apply a h (ix2 p c) (ix2 p 0) (fun d => match d with
    | ⟨0, _⟩ => by
        show p.val = if R = 1 then 0 else p.val
        split
        · have := p.isLt; omega
        · rfl
    | ⟨1, _⟩ => rfl)

/-- A one-column array spread over `w` columns (the host's form, both axes kept), read at `(p, c)`: its entry in
    row `p`. -/
theorem bcastInDim_ix2 {R w : Nat} (a : (Sh2 R 1).Idx → α) (h : (Sh2 R 1).BroadcastsInDim (Sh2 R w) ![0, 1])
    (p : Fin R) (c : Fin w) :
    broadcastInDim (Sh2 R w) ![0, 1] h a (ix2 p c) = a (ix2 p 0) :=
  broadcastInDim_apply ![0, 1] h a (ix2 p c) (ix2 p 0) (fun d => match d with
    | ⟨0, _⟩ => by
        show p.val = if R = 1 then 0 else p.val
        split
        · have := p.isLt; omega
        · rfl
    | ⟨1, _⟩ => rfl)

/-- A slice of columns acts row by row. -/
theorem RowsOf.slice {R R' W w : Nat} {f : Fin R → Fin R'} {a : (Sh2 R W).Idx → α} {b : (Sh2 R' W).Idx → α}
    (hab : RowsOf f a b) (o : Nat) (hoW : o + w ≤ W)
    (h : (Sh2 R W).Slices ![0, o] (Sh2 R w)) (h' : (Sh2 R' W).Slices ![0, o] (Sh2 R' w)) :
    RowsOf f (extractStridedSlice (Sh2 R w) ![0, o] a h) (extractStridedSlice (Sh2 R' w) ![0, o] b h') := by
  intro p c
  have hc : o + c.val < W := by have := c.isLt; omega
  rw [slice_ix2 o a h p c hc, slice_ix2 o b h' (f p) c hc]
  exact hab p _

/-- Spreading a column over the columns acts row by row (the vector form on the one side, the host's on the other). -/
theorem RowsOf.bcast {R R' w : Nat} {f : Fin R → Fin R'} {a : (Sh2 R 1).Idx → α} {b : (Sh2 R' 1).Idx → α}
    (hab : RowsOf f a b) (h : (Sh2 R 1).Broadcasts (Sh2 R w)) (h' : (Sh2 R' 1).BroadcastsInDim (Sh2 R' w) ![0, 1]) :
    RowsOf f (broadcastTo (Sh2 R w) a h) (broadcastInDim (Sh2 R' w) ![0, 1] h' b) := by
  intro p c
  rw [bcastTo_ix2, bcastInDim_ix2]
  exact hab p 0

/-- A pointwise product acts row by row. -/
theorem RowsOf.mulf {F : FTy → Type} [FloatOps F] {φ : FTy} {R R' w : Nat} {f : Fin R → Fin R'}
    {a a' : FVec F (Sh2 R w) φ} {b b' : FVec F (Sh2 R' w) φ}
    (h : RowsOf f a b) (h' : RowsOf f a' b') : RowsOf f (Idealize.ShloMosaic.mulf a a') (Idealize.ShloMosaic.mulf b b') := by
  intro p c
  show FloatOps.mulf (a _) (a' _) = FloatOps.mulf (b _) (b' _)
  rw [h p c, h' p c]

/-- The widths of the first `n` pieces of a concatenation along the columns add up as the first `n` entries of
    the list of widths. -/
theorem widths_take_sum {R C : Nat} : ∀ (xs : List ((s : Shape) × (s.Idx → α))) (ws : List Nat),
    xs.map (·.1) = ws.map (fun w => Sh2 R w) → ∀ n : Nat,
    (((xs.take n).map (·.1)).map fun s =>
      if h : s.rank = (Sh2 R C).rank then s.size ((1 : Fin (Sh2 R C).rank).cast h.symm) else 0).sum = (ws.take n).sum
  | _, _, _, 0 => by simp
  | [], [], _, _ + 1 => by simp
  | [], _ :: _, h, _ => by simp at h
  | _ :: _, [], h, _ => by simp at h
  | x :: xs, w :: ws, h, n + 1 => by
    simp only [List.map_cons, List.cons.injEq] at h
    simp only [List.take_succ_cons, List.map_cons, List.sum_cons]
    rw [widths_take_sum xs ws h.2 n, h.1]
    show (if h : (2 : ℕ) = 2 then (![R, w] : Fin 2 → ℕ) ((1 : Fin 2).cast h.symm) else 0) + _ = _
    rw [dif_pos rfl]
    rfl

/-- A concatenation along the columns of pieces of widths `ws`, read at `(p, k)` with `k` inside the span
    `[pre, pre + w)` of piece `n` (`pre` the sum of the widths before it): that piece at `(p, k - pre)`. -/
theorem concatCols_ix2 {R C : Nat} (xs : List ((s : Shape) × (s.Idx → α)))
    (h : Shape.Concatenates (xs.map (·.1)) (Sh2 R C) 1)
    (ws : List Nat) (hws : xs.map (·.1) = ws.map (fun w => Sh2 R w))
    (n : Nat) (hn : n < xs.length) (w : Nat) (x : (Sh2 R w).Idx → α) (hx : xs[n] = ⟨Sh2 R w, x⟩)
    (pre : Nat) (hpre : (ws.take n).sum = pre)
    (p : Fin R) (k : Fin C) (hlo : pre ≤ k.val) (hhi : k.val < pre + w) :
    concatenate (Sh2 R C) 1 xs h (ix2 p k) = x (ix2 p ⟨k.val - pre, by omega⟩) :=
  concatenate_apply_piece 1 xs h (ix2 p k) n hn (Sh2 R w) x hx rfl pre
    ((widths_take_sum (C := C) xs ws hws n).trans hpre) (ix2 p ⟨k.val - pre, by omega⟩)
    (fun b hb => match b, hb with
      | ⟨0, _⟩, _ => rfl
      | ⟨1, _⟩, hb => absurd rfl hb)
    (by show pre + (k.val - pre) = k.val; omega)

end Cert.Lib.Rowwise

end
-- ==== Proof.GatedUpdate.lean ====
/-
  A gated recurrent update whose candidate state comes from a mean over graph neighbours, entry by entry on the
  extended reals.

  For node features x and a previous state h (one row per node, 128 columns each), weight matrices W and bias
  rows b:

    r  = σ(x·W_xr + b_xr + h·W_hr)                 the reset gate
    z  = σ(x·W_xz + b_xz + h·W_hz)                 the update gate
    xc = [ x | r ⊙ h ]                             the candidate's input, 256 columns
    n  = mean·W_l + b_l + xc·W_r                    the candidate, mean = the neighbour average of xc's rows
    out = (1 − z) ⊙ n + z ⊙ h

  with σ(u) = 1 / (1 + e^(−u)). The three maps `gate`, `joined` and `blend` below are σ(…), [ · | · ⊙ · ] and the
  last two lines. Each of them is ROW-LOCAL: row p of the result depends on row p of every operand that has one row
  per node, and on the whole weight matrices and bias rows. So applied to a block of consecutive rows of the
  operands each gives the same block of rows of the result (`gate_rows`, `joined_rows`, `blend_rows`) — which is
  why computing the update one block of nodes at a time computes the whole update. The neighbour average is NOT
  row-local and does not appear here: `blend` takes it as an operand.

  Nothing needs the entries to be finite: every equation below is between the same operations applied in the same
  order to equal operands.
-/
import Idealize.ShloMosaic.PureOps.Ideal
import Idealize.ShloMosaic.Lib.ValueIdx
import proofs.«103373_j38147899523553_1_alg».proof.Proof.LibRowsTimes
import proofs.«103373_j38147899523553_1_alg».proof.Proof.LibRowwise

noncomputable section

namespace Cert.GatedUpdate

open Idealize.ShloMosaic Idealize.ShloMosaic.ValueIdx Cert.Dense Cert.Lib.Rowwise

/-- An array of `R` rows and `C` columns of extended reals. -/
abbrev Arr (R C : Nat) : Type := (Sh2 R C).Idx → EReal

/-- The f32 word of the number one, as both programs print it: the same word on both sides, never evaluated. -/
abbrev one : EReal := Ideal.ofBits .f32 0x3F800000#32

/-! ## The three maps, at a row and a column -/

/-- A gate at (p, q): σ of (x·Wx)(p, q) + b(q) + (h·Wh)(p, q). -/
def gateAt {R : Nat} (x h : Arr R 128) (Wx Wh : Arr 128 128) (b : Fin 128 → EReal) (p : Fin R) (q : Fin 128) : EReal :=
  Ideal.logistic (rowsTimes x Wx (ix2 p q) + b q + rowsTimes h Wh (ix2 p q))

/-- The candidate's input at (p, c): x(p, c) in the first 128 columns, r(p, c − 128) · h(p, c − 128) in the last 128. -/
def joinedAt {R : Nat} (x r h : Arr R 128) (p : Fin R) (c : Fin 256) : EReal :=
  if hc : c.val < 128 then x (ix2 p ⟨c.val, hc⟩)
  else r (ix2 p ⟨c.val - 128, by omega⟩) * h (ix2 p ⟨c.val - 128, by omega⟩)

/-- The blended state at (p, q): (1 − z)·(mean·Wl + bl + xc·Wr) + z·h. -/
def blendAt {R : Nat} (mean xc : Arr R 256) (z h : Arr R 128) (Wl Wr : Arr 256 128) (bl : Fin 128 → EReal)
    (p : Fin R) (q : Fin 128) : EReal :=
  (one - z (ix2 p q)) * (rowsTimes mean Wl (ix2 p q) + bl q + rowsTimes xc Wr (ix2 p q)) + z (ix2 p q) * h (ix2 p q)

/-! ## The same as whole arrays -/

def gate {R : Nat} (x h : Arr R 128) (Wx Wh : Arr 128 128) (b : Fin 128 → EReal) : Arr R 128 :=
  fun i => gateAt x h Wx Wh b (i 0) (i 1)

def joined {R : Nat} (x r h : Arr R 128) : Arr R 256 :=
  fun i => joinedAt x r h (i 0) (i 1)

def blend {R : Nat} (mean xc : Arr R 256) (z h : Arr R 128) (Wl Wr : Arr 256 128) (bl : Fin 128 → EReal) : Arr R 128 :=
  fun i => blendAt mean xc z h Wl Wr bl (i 0) (i 1)

/-! ## Row-locality -/

/-- A product's rows are the products of the left operand's rows. -/
theorem rowsTimes_rows {R R' K N : Nat} {f : Fin R → Fin R'} {a' : Arr R K} {a : Arr R' K} (ha : RowsOf f a' a)
    (w : Arr K N) : RowsOf f (rowsTimes a' w) (rowsTimes a w) := fun p c =>
  rowsTimes_of_rows a w a' w (ix2 p c) (ix2 (f p) c) (fun k => ha p k) (fun _ => rfl)

theorem gate_rows {R R' : Nat} {f : Fin R → Fin R'} {x' h' : Arr R 128} {x h : Arr R' 128}
    (hx : RowsOf f x' x) (hh : RowsOf f h' h) (Wx Wh : Arr 128 128) (b : Fin 128 → EReal) :
    RowsOf f (gate x' h' Wx Wh b) (gate x h Wx Wh b) := fun p q => by
  show gateAt x' h' Wx Wh b p q = gateAt x h Wx Wh b (f p) q
  unfold gateAt
  rw [rowsTimes_rows hx Wx p q, rowsTimes_rows hh Wh p q]

theorem joined_rows {R R' : Nat} {f : Fin R → Fin R'} {x' r' h' : Arr R 128} {x r h : Arr R' 128}
    (hx : RowsOf f x' x) (hr : RowsOf f r' r) (hh : RowsOf f h' h) :
    RowsOf f (joined x' r' h') (joined x r h) := fun p c => by
  show joinedAt x' r' h' p c = joinedAt x r h (f p) c
  unfold joinedAt
  split
  · exact hx p _
  · rw [hr p _, hh p _]

theorem blend_rows {R R' : Nat} {f : Fin R → Fin R'} {mean' xc' : Arr R 256} {z' h' : Arr R 128}
    {mean xc : Arr R' 256} {z h : Arr R' 128}
    (hm : RowsOf f mean' mean) (hxc : RowsOf f xc' xc) (hz : RowsOf f z' z) (hh : RowsOf f h' h)
    (Wl Wr : Arr 256 128) (bl : Fin 128 → EReal) :
    RowsOf f (blend mean' xc' z' h' Wl Wr bl) (blend mean xc z h Wl Wr bl) := fun p q => by
  show blendAt mean' xc' z' h' Wl Wr bl p q = blendAt mean xc z h Wl Wr bl (f p) q
  unfold blendAt
  rw [rowsTimes_rows hm Wl p q, rowsTimes_rows hxc Wr p q, hz p q, hh p q]

/-! ## Two arrays laid side by side -/

/-- x laid beside y, 128 columns each, read at (p, c): x's column c in the first half, y's column c − 128 in the second. -/
theorem beside_at {R : Nat} (x y : Arr R 128) (hcat : Shape.Concatenates [Sh2 R 128, Sh2 R 128] (Sh2 R 256) 1)
    (p : Fin R) (c : Fin 256) :
    concatenate (Sh2 R 256) 1 [⟨Sh2 R 128, x⟩, ⟨Sh2 R 128, y⟩] hcat (ix2 p c)
      = if hc : c.val < 128 then x (ix2 p ⟨c.val, hc⟩) else y (ix2 p ⟨c.val - 128, by omega⟩) := by
  split
  · next hc =>
    exact (concatCols_ix2 (R := R) (C := 256) [⟨Sh2 R 128, x⟩, ⟨Sh2 R 128, y⟩] hcat [128, 128] rfl 0 (Nat.succ_pos _) 128 x rfl
      0 rfl p c (Nat.zero_le _) (by omega)).trans (congrArg x (by rfl))
  · next hc =>
    exact concatCols_ix2 (R := R) (C := 256) [⟨Sh2 R 128, x⟩, ⟨Sh2 R 128, y⟩] hcat [128, 128] rfl 1
      (Nat.succ_lt_succ (Nat.succ_pos _)) 128 y rfl 128 rfl p c (by omega) (by have := c.isLt; omega)

/-- x laid beside the entrywise product r ⊙ h is `joined x r h`. -/
theorem joined_of_beside {R : Nat} (x r h : Arr R 128) (hcat : Shape.Concatenates [Sh2 R 128, Sh2 R 128] (Sh2 R 256) 1) :
    concatenate (Sh2 R 256) 1 [⟨Sh2 R 128, x⟩, ⟨Sh2 R 128, fun i => r i * h i⟩] hcat = joined x r h := by
  funext j
  obtain ⟨p, c, rfl⟩ : ∃ (p : Fin R) (c : Fin 256), j = ix2 p c := ⟨j 0, j 1, eq_ix2 j⟩
  exact beside_at x (fun i => r i * h i) hcat p c

/-- The maps agree on operands that agree (used to replace an operand by an equal one under a map). -/
theorem joined_congr {R : Nat} {x r r' h : Arr R 128} (e : r = r') : joined x r h = joined x r' h := by rw [e]

end Cert.GatedUpdate

end
-- ==== Proof.LibRowsCols.lean ====
/-
  A contraction of a [R, K] array with a [K, N] array over their one shared axis, read at an entry.

  Both the matrix unit's product into a zero accumulator (the kernel's `tpu.matmul`) and the host's
  `dot_general` are, on the extended reals, the sum over the contraction index of left entry × right entry.
  When the record's left operand index at output (r, j) and contraction position k is (r, k), and the right one
  is (k, j), that sum is `rowsTimes a w (r, j) = ∑ k, a (r, k) · w (k, j)`. A change of float format is the
  identity on the extended reals, so the kernel's casts of its operands to bf16 do not appear.

  Only commutative-monoid facts about the sum are used: nothing here needs the entries to be finite.
-/
import Idealize.ShloMosaic.PureOps.Ideal.Laws
import Idealize.ShloMosaic.Lib.ValueIdx
import proofs.«103373_j38147899523553_1_alg».proof.Proof.LibRowsTimes

noncomputable section

namespace Cert.Dense

open Idealize.ShloMosaic Idealize.ShloMosaic.ValueIdx

variable {R K N : Nat} (d : DotDims ⟨2, ![R, K]⟩ ⟨2, ![K, N]⟩ ⟨2, ![R, N]⟩)

/-- The record contracts ONE axis, of extent `K`, and its operand indices at output index `j` and contraction
    position `k` are (j 0, k) on the left and (k, j 1) on the right: "rows times columns". -/
structure RowsCols : Prop where
  rank : d.contr.rank = 1
  size : d.contr.size ⟨0, by omega⟩ = K
  l0 : ∀ (j : (⟨2, ![R, N]⟩ : Shape).Idx) (k : d.contr.Idx), (d.lhsIdx j k 0).val = (j 0).val
  l1 : ∀ (j : (⟨2, ![R, N]⟩ : Shape).Idx) (k : d.contr.Idx), (d.lhsIdx j k 1).val = (k ⟨0, by omega⟩).val
  r0 : ∀ (j : (⟨2, ![R, N]⟩ : Shape).Idx) (k : d.contr.Idx), (d.rhsIdx j k 0).val = (k ⟨0, by omega⟩).val
  r1 : ∀ (j : (⟨2, ![R, N]⟩ : Shape).Idx) (k : d.contr.Idx), (d.rhsIdx j k 1).val = (j 1).val

variable {d}

/-- The left operand index, with the contraction position named by its one coordinate `k`, is (j 0, k). -/
theorem RowsCols.lhs (h : RowsCols d) (j : (⟨2, ![R, N]⟩ : Shape).Idx) (k : Fin K) :
    d.lhsIdx j ((contrEquiv1 d K h.rank h.size).symm k) = ix2 (j 0 : Fin R) k := by
  funext x; apply Fin.ext
  match x with
  | ⟨0, _⟩ => exact h.l0 j _
  | ⟨1, _⟩ => exact (h.l1 j _).trans (contrEquiv1_symm_val d K h.rank h.size k)

/-- The right operand index, likewise, is (k, j 1). -/
theorem RowsCols.rhs (h : RowsCols d) (j : (⟨2, ![R, N]⟩ : Shape).Idx) (k : Fin K) :
    d.rhsIdx j ((contrEquiv1 d K h.rank h.size).symm k) = ix2 k (j 1 : Fin N) := by
  funext x; apply Fin.ext
  match x with
  | ⟨0, _⟩ => exact (h.r0 j _).trans (contrEquiv1_symm_val d K h.rank h.size k)
  | ⟨1, _⟩ => exact h.r1 j _

/-- The matrix unit's product of `a` and `w` into the zero accumulator, at (r, j), is `∑ k, a (r, k) · w (k, j)`;
    the operands' float formats are whatever they are (a format is not seen on the extended reals). -/
theorem matmul_zero_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    FloatOps.matmul d prec a w (constant (F := Ideal) ⟨2, ![R, N]⟩ .f32 0x00000000#32) j = rowsTimes a w j := by
  rw [Ideal.matmul_constant_zero_apply]
  exact contraction_eq d h.rank h.size a w a w j j (fun k => congrArg a (h.lhs j k)) (fun k => congrArg w (h.rhs j k))

/-- The host's `dot_general` of `a` and `w`, at (r, j), is the same sum. -/
theorem dotGeneral_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    Host.dotGeneral d prec a w j = rowsTimes a w j := by
  show FloatOps.dotGeneral d prec .single a w j = _
  rw [Ideal.dotGeneral_apply]
  exact contraction_eq d h.rank h.size a w a w j j (fun k => congrArg a (h.lhs j k)) (fun k => congrArg w (h.rhs j k))

/-- So the host's `dot_general` of two whole arrays IS their product, as one function. -/
theorem dotGeneral_eq (h : RowsCols d) (prec : Option ContractPrecision) {φ₁ φ₂ : FTy}
    (a : FVec Ideal ⟨2, ![R, K]⟩ φ₁) (w : FVec Ideal ⟨2, ![K, N]⟩ φ₂) :
    Host.dotGeneral d prec a w = rowsTimes a w := funext (dotGeneral_apply h prec a w)

end Cert.Dense

end
-- ==== Proof.BodyValues.lean ====
/-
  What the two kernel bodies store, as functions of the blocks they load.

  The gates' body stores, into its first output block, the update gate of its blocks of x and h; into its second,
  x beside (reset gate ⊙ h). The blending body stores (1 − z)·(mean·W_l + b_l + xc·W_r) + z·h of its blocks. On the
  extended reals the bodies' changes of float format before each matrix product are the identity, a matrix unit's
  product into a zero accumulator is the plain sum of products, a bias row [1, 128] spread over the block's rows is
  its entry in that column, and the logistic operation is σ: so each stored value is `gate`, `joined` or `blend`
  (GatedUpdate.lean) of the loaded blocks, the bias given as its one row.
-/
import proofs.«103373_j38147899523553_1_alg».proof.Proof.Gen.KernelIdeal.Skeleton
import proofs.«103373_j38147899523553_1_alg».proof.Proof.GatedUpdate
import proofs.«103373_j38147899523553_1_alg».proof.Proof.LibRowsCols
import Idealize.ShloMosaic.Lib.Pipeline.Value
import Idealize.ShloMosaic.Lib.ValueIdx
import Idealize.ShloMosaic.PureOps.Ideal.Laws

noncomputable section

namespace Cert.KernelIdeal.Body

open Idealize.ShloMosaic Idealize.ShloMosaic.ValueIdx
open Cert.KernelIdeal Cert.KernelIdeal.Gen Cert.GatedUpdate Cert.Dense Cert.Lib.Rowwise

/-- The [5000, 128] × [128, 128] record contracts the one shared axis: rows times columns. -/
theorem rc128 : RowsCols (R := 5000) (K := 128) (N := 128) dot_S5000x128_S128x128_S5000x128_1_0_0_1_n_n :=
  ⟨rfl, rfl, fun _ _ => rfl, fun _ _ => rfl, fun _ _ => rfl, fun _ _ => rfl⟩

/-- The [5000, 256] × [256, 128] record likewise. -/
theorem rc256 : RowsCols (R := 5000) (K := 256) (N := 128) dot_S5000x256_S256x128_S5000x128_1_0_0_1_n_n :=
  ⟨rfl, rfl, fun _ _ => rfl, fun _ _ => rfl, fun _ _ => rfl, fun _ _ => rfl⟩

/-- A bias row spread over the block's rows, read at (p, q): the row's entry in column q. -/
theorem bias_at (v : Vec Ideal S1x128 .f32) (p : Fin 5000) (q : Fin 128) :
    broadcastTo S5000x128 (shapeCast S1x128 v shapeCasts_S1x128_S1x128) broadcasts_S1x128_S5000x128 (ix2 p q)
      = v (ix2 0 q) := by
  rw [shapeCast_self]
  exact broadcastTo_apply v broadcasts_S1x128_S5000x128 (ix2 p q) (ix2 0 q) (fun a => match a with
    | ⟨0, _⟩ => by show (0 : ℕ) = if (1 : Nat) = 1 then 0 else _; rw [if_pos rfl]
    | ⟨1, _⟩ => by show q.val = if (128 : Nat) = 1 then 0 else q.val; rw [if_neg (by decide)])

/-- σ of x·Wx + b + h·Wh, as a body computes it from loaded blocks, is `gate`. -/
theorem gate_body (x h : Vec Ideal S5000x128 .f32) (Wx Wh : Vec Ideal S128x128 .f32) (b : Vec Ideal S1x128 .f32) :
    logistic (F := Ideal) (addf (addf
        (matmul dot_S5000x128_S128x128_S5000x128_1_0_0_1_n_n none (truncf .bf16 x bitsLt_bf16_f32)
          (truncf .bf16 Wx bitsLt_bf16_f32) (constant S5000x128 .f32 0x00000000#32))
        (broadcastTo S5000x128 (shapeCast S1x128 b shapeCasts_S1x128_S1x128) broadcasts_S1x128_S5000x128))
        (matmul dot_S5000x128_S128x128_S5000x128_1_0_0_1_n_n none (truncf .bf16 h bitsLt_bf16_f32)
          (truncf .bf16 Wh bitsLt_bf16_f32) (constant S5000x128 .f32 0x00000000#32)))
      = (gate x h Wx Wh (fun q => b (ix2 0 q)) : FVec Idealize.ShloMosaic.Ideal S5000x128 .f32) := by
  funext j
  obtain ⟨p, q, rfl⟩ : ∃ (p : Fin 5000) (q : Fin 128), j = ix2 p q := ⟨j 0, j 1, eq_ix2 j⟩
  show Ideal.logistic
      (FloatOps.matmul dot_S5000x128_S128x128_S5000x128_1_0_0_1_n_n none x Wx (constant (F := Ideal) S5000x128 .f32 0x00000000#32) (ix2 p q)
        + broadcastTo S5000x128 (shapeCast S1x128 b shapeCasts_S1x128_S1x128) broadcasts_S1x128_S5000x128 (ix2 p q)
        + FloatOps.matmul dot_S5000x128_S128x128_S5000x128_1_0_0_1_n_n none h Wh (constant (F := Ideal) S5000x128 .f32 0x00000000#32) (ix2 p q))
    = gateAt x h Wx Wh (fun q => b (ix2 0 q)) p q
  rw [matmul_zero_apply rc128, matmul_zero_apply rc128, bias_at]
  rfl

/-- The update gate's block. -/
theorem update_gate_body (v0 v1 : Vec Ideal S5000x128 .f32) (v15 : Vec Ideal S128x128 .f32) (v18 : Vec Ideal S1x128 .f32)
    (v22 : Vec Ideal S128x128 .f32) :
    k0_pay3 (F := Ideal) v0 v1 v15 v18 v22 = gate v0 v1 v15 v22 (fun q => v18 (ix2 0 q)) :=
  gate_body v0 v1 v15 v22 v18

/-- The candidate input's block: x beside (reset gate ⊙ h). -/
theorem joined_body (v0 v1 : Vec Ideal S5000x128 .f32) (v4 : Vec Ideal S128x128 .f32) (v7 : Vec Ideal S1x128 .f32)
    (v11 : Vec Ideal S128x128 .f32) :
    k0_pay4 (F := Ideal) v0 v1 v4 v7 v11 = joined v0 (gate v0 v1 v4 v11 (fun q => v7 (ix2 0 q))) v1 := by
  have e : k0_pay4 (F := Ideal) v0 v1 v4 v7 v11
      = concatenate S5000x256 1 [⟨S5000x128, v0⟩,
          ⟨S5000x128, mulf (F := Ideal) (s := S5000x128) (φ := .f32) (gate v0 v1 v4 v11 (fun q => v7 (ix2 0 q))) v1⟩]
          concatenates_S5000x128_S5000x128_S5000x256_d1 :=
    congrArg (fun r : FVec Idealize.ShloMosaic.Ideal S5000x128 .f32 => concatenate S5000x256 1 [⟨S5000x128, v0⟩, ⟨S5000x128, mulf (F := Ideal) (s := S5000x128) (φ := .f32) r v1⟩]
      concatenates_S5000x128_S5000x128_S5000x256_d1) (gate_body v0 v1 v4 v11 v7)
  rw [e]
  exact joined_of_beside v0 (gate v0 v1 v4 v11 (fun q => v7 (ix2 0 q))) v1 concatenates_S5000x128_S5000x128_S5000x256_d1

/-- The blended state's block. -/
theorem blend_body (v0 v3 : Vec Ideal S5000x256 .f32) (v6 : Vec Ideal S256x128 .f32) (v9 : Vec Ideal S1x128 .f32)
    (v13 : Vec Ideal S256x128 .f32) (v17 v22 : Vec Ideal S5000x128 .f32) :
    k1_pay1 (F := Ideal) v0 v3 v6 v9 v13 v17 v22 = blend v0 v3 v17 v22 v6 v13 (fun q => v9 (ix2 0 q)) := by
  funext j
  obtain ⟨p, q, rfl⟩ : ∃ (p : Fin 5000) (q : Fin 128), j = ix2 p q := ⟨j 0, j 1, eq_ix2 j⟩
  show (Ideal.ofBits .f32 0x3F800000#32 - shapeCast S5000x128 v17 shapeCasts_S5000x128_S5000x128 (ix2 p q))
        * (FloatOps.matmul dot_S5000x256_S256x128_S5000x128_1_0_0_1_n_n none (shapeCast S5000x256 v0 shapeCasts_S5000x256_S5000x256) v6
              (constant (F := Ideal) S5000x128 .f32 0x00000000#32) (ix2 p q)
            + broadcastTo S5000x128 (shapeCast S1x128 v9 shapeCasts_S1x128_S1x128) broadcasts_S1x128_S5000x128 (ix2 p q)
            + FloatOps.matmul dot_S5000x256_S256x128_S5000x128_1_0_0_1_n_n none (shapeCast S5000x256 v3 shapeCasts_S5000x256_S5000x256) v13
              (constant (F := Ideal) S5000x128 .f32 0x00000000#32) (ix2 p q))
        + shapeCast S5000x128 v17 shapeCasts_S5000x128_S5000x128 (ix2 p q) * v22 (ix2 p q)
    = blendAt v0 v3 v17 v22 v6 v13 (fun q => v9 (ix2 0 q)) p q
  rw [bias_at, shapeCast_self v17, shapeCast_self v0, shapeCast_self v3, matmul_zero_apply rc256, matmul_zero_apply rc256]
  rfl

end Cert.KernelIdeal.Body

end
-- ==== Proof.GatesRegion.lean ====
/-
  The first pallas_call, as whole arrays.

  Its grid has ten points; point t works on rows 5000·t … 5000·t + 4999 of x and of h (blocks of 5000 rows), on the
  four weight matrices and the two bias rows whole, and writes rows 5000·t … of its two results. The gates are
  row-local (GatedUpdate.lean), so what point t writes back is block t of ONE function of the arrays the call finds:

    result 0 = gate x h W_xz W_hz b_xz                                 (the update gate z)
    result 1 = joined x (gate x h W_xr W_hr b_xr) h                    (the candidate's input [ x | r ⊙ h ])

  and the ten blocks cover all 50000 rows, so after the call the two result arrays ARE those functions. Stated at any
  contents `V` of the buffers when the call is entered.
-/
import proofs.«103373_j38147899523553_1_alg».proof.Proof.Gen.KernelIdeal.Frame
import proofs.«103373_j38147899523553_1_alg».proof.Proof.BodyValues
import Idealize.ShloMosaic.Lib.Pipeline.Value

set_option maxRecDepth 16384

noncomputable section

namespace Cert.KernelIdeal.GatesRegion

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.GatedUpdate Cert.Lib.Rowwise

variable (V : (c : Dev nD) → (b : Ref sig .tc) → Buf (Elt Ideal) ((c : Thread nD τ).loc b))

theorem hz : (![0, 0] : Fin 2 → Nat) = fun _ => 0 := funext fun a => by fin_cases a <;> rfl

/-- The grid has ten points. -/
theorem lt10 (t : Fin cfg0.N) : t.val < 10 := by
  have h := t.isLt
  have hN : cfg0.N = 10 := N_0
  omega

/-- Row p of block t is row 5000·t + p of the array. -/
def blockRow (t : Fin cfg0.N) (p : Fin 5000) : Fin 50000 := ⟨5000 * t.val + p.val, by have := lt10 t; omega⟩

/-- The printed index maps, decided once over the grid: the row windows and both results sit at block (t, 0), the
    weights and bias rows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-! ## The input blocks, read -/

/-- x's block at point t is rows 5000·t … of x. -/
theorem x_rows (c : Dev nD) (t : Fin cfg0.N) : RowsOf (blockRow t) (iblk0 V c 0 t) (V c main_arg0) := fun p k => by
  obtain ⟨e0, e1, -⟩ := idx_facts t
  show V c main_arg0 (((cfg0.win 0).blk t).view.emb (ix2 p k)) = V c main_arg0 (ix2 (blockRow t p) k)
  refine congrArg (V c main_arg0) (funext fun a => Fin.ext ?_)
  match a with
  | ⟨0, _⟩ => show win0_0.index t (0 : Fin 2) * 5000 + 1 * p.val = 5000 * t.val + p.val; omega
  | ⟨1, _⟩ => show win0_0.index t (1 : Fin 2) * 128 + 1 * k.val = k.val; omega

/-- h's block at point t is rows 5000·t … of h. -/
theorem h_rows (c : Dev nD) (t : Fin cfg0.N) : RowsOf (blockRow t) (iblk0 V c 1 t) (V c main_arg2) := fun p k => by
  obtain ⟨-, -, e0, e1, -⟩ := idx_facts t
  show V c main_arg2 (((cfg0.win 1).blk t).view.emb (ix2 p k)) = V c main_arg2 (ix2 (blockRow t p) k)
  refine congrArg (V c main_arg2) (funext fun a => Fin.ext ?_)
  match a with
  | ⟨0, _⟩ => show win0_1.index t (0 : Fin 2) * 5000 + 1 * p.val = 5000 * t.val + p.val; omega
  | ⟨1, _⟩ => show win0_1.index t (1 : Fin 2) * 128 + 1 * k.val = k.val; omega

/-- A weight matrix's block is the matrix. -/
theorem w2_whole (c : Dev nD) (t : Fin cfg0.N) : iblk0 V c 2 t = V c main_arg3 := funext fun y => by
  obtain ⟨-, -, -, -, e0, e1, -⟩ := idx_facts t
  show V c main_arg3 (((cfg0.win 2).blk t).view.emb y) = V c main_arg3 y
  refine congrArg (V c main_arg3) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega
theorem w3_whole (c : Dev nD) (t : Fin cfg0.N) : iblk0 V c 3 t = V c main_v0 := funext fun y => by
  obtain ⟨-, -, -, -, -, -, e0, e1, -⟩ := idx_facts t
  show V c main_v0 (((cfg0.win 3).blk t).view.emb y) = V c main_v0 y
  refine congrArg (V c main_v0) (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega
theorem w4_whole (c : Dev nD) (t : Fin cfg0.N) : iblk0 V c 4 t = V c main_arg5 := funext fun y => by
  obtain ⟨-, -, -, -, -, -, -, -, e0, e1, -⟩ := idx_facts t
  show V c main_arg5 (((cfg0.win 4).blk t).view.emb y) = V c main_arg5 y
  refine congrArg (V c main_arg5) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega
theorem w5_whole (c : Dev nD) (t : Fin cfg0.N) : iblk0 V c 5 t = V c main_arg6 := funext fun y => by
  obtain ⟨-, -, -, -, -, -, -, -, -, -, e0, e1, -⟩ := idx_facts t
  show V c main_arg6 (((cfg0.win 5).blk t).view.emb y) = V c main_arg6 y
  refine congrArg (V c main_arg6) (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega
theorem w6_whole (c : Dev nD) (t : Fin cfg0.N) : iblk0 V c 6 t = V c main_v1 := funext fun y => by
  obtain ⟨-, -, -, -, -, -, -, -, -, -, -, -, e0, e1, -⟩ := idx_facts t
  show V c main_v1 (((cfg0.win 6).blk t).view.emb y) = V c main_v1 y
  refine congrArg (V c main_v1) (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega
theorem w7_whole (c : Dev nD) (t : Fin cfg0.N) : iblk0 V c 7 t = V c main_arg8 := funext fun y => by
  obtain ⟨-, -, -, -, -, -, -, -, -, -, -, -, -, -, e0, e1, -⟩ := idx_facts t
  show V c main_arg8 (((cfg0.win 7).blk t).view.emb y) = V c main_arg8 y
  refine congrArg (V c main_arg8) (funext fun a => Fin.ext ?_)
  match a with
  | ⟨0, _⟩ => show win0_7.index t (0 : Fin 2) * 128 + 1 * (y 0).val = (y 0).val; omega
  | ⟨1, _⟩ => show win0_7.index t (1 : Fin 2) * 128 + 1 * (y 1).val = (y 1).val; omega

/-! ## The two results as functions of the arrays the call finds -/

/-- The update gate z of the arrays. -/
abbrev zOf (c : Dev nD) : Arr 50000 128 :=
  gate (V c main_arg0) (V c main_arg2) (V c main_arg6) (V c main_arg8) (fun q => V c main_v1 (ix2 0 q))

/-- The candidate's input [ x | r ⊙ h ] of the arrays. -/
abbrev xcOf (c : Dev nD) : Arr 50000 256 :=
  joined (V c main_arg0) (gate (V c main_arg0) (V c main_arg2) (V c main_arg3) (V c main_arg5) (fun q => V c main_v0 (ix2 0 q)))
    (V c main_arg2)

/-- What point t writes back to result 0 is block t of the update gate. -/
theorem flushed_z (c : Dev nD) (t : Fin cfg0.N) :
    (dat0 V c).flushed 8 t = ((cfg0.win 8).blk t).view.read (Elt Ideal) (zOf V c) := by
  show (cfg0.win 8).cut (grid0.coords t) ((dat0 V c).after 8 t) = _
  rw [after0_8]
  unfold out0_8
  rw [View.canon_unit_zero hz]
  simp only [View.ld_unit_zero (S := S5000x128) hz, View.ld_unit_zero (S := S128x128) hz, View.ld_unit_zero (S := S1x128) hz]
  rw [Body.update_gate_body, w5_whole V c t, w6_whole V c t, w7_whole V c t]
  obtain ⟨-, -, -, -, -, -, -, -, -, -, -, -, -, -, -, -, e0, e1, -⟩ := idx_facts t
  funext j
  obtain ⟨p, q, rfl⟩ : ∃ (p : Fin 5000) (q : Fin 128), j = ix2 p q := ⟨j 0, j 1, eq_ix2 j⟩
  refine (gate_rows (x_rows V c t) (h_rows V c t) (V c main_arg6) (V c main_arg8) (fun q => V c main_v1 (ix2 0 q)) p q).trans ?_
  show zOf V c (ix2 (blockRow t p) q) = zOf V c (((cfg0.win 8).blk t).view.emb (ix2 p q))
  refine congrArg (zOf V c) (funext fun a => Fin.ext ?_)
  match a with
  | ⟨0, _⟩ => show 5000 * t.val + p.val = win0_8.index t (0 : Fin 2) * 5000 + 1 * p.val; omega
  | ⟨1, _⟩ => show q.val = win0_8.index t (1 : Fin 2) * 128 + 1 * q.val; omega

/-- What point t writes back to result 1 is block t of the candidate's input. -/
theorem flushed_xc (c : Dev nD) (t : Fin cfg0.N) :
    (dat0 V c).flushed 9 t = ((cfg0.win 9).blk t).view.read (Elt Ideal) (xcOf V c) := by
  show (cfg0.win 9).cut (grid0.coords t) ((dat0 V c).after 9 t) = _
  rw [after0_9]
  unfold out0_9
  rw [View.canon_unit_zero hz]
  simp only [View.ld_unit_zero (S := S5000x128) hz, View.ld_unit_zero (S := S128x128) hz, View.ld_unit_zero (S := S1x128) hz]
  rw [Body.joined_body, w2_whole V c t, w3_whole V c t, w4_whole V c t]
  obtain ⟨-, -, -, -, -, -, -, -, -, -, -, -, -, -, -, -, -, -, e0, e1⟩ := idx_facts t
  funext j
  obtain ⟨p, k, rfl⟩ : ∃ (p : Fin 5000) (k : Fin 256), j = ix2 p k := ⟨j 0, j 1, eq_ix2 j⟩
  refine (joined_rows (x_rows V c t)
    (gate_rows (x_rows V c t) (h_rows V c t) (V c main_arg3) (V c main_arg5) (fun q => V c main_v0 (ix2 0 q)))
    (h_rows V c t) p k).trans ?_
  show xcOf V c (ix2 (blockRow t p) k) = xcOf V c (((cfg0.win 9).blk t).view.emb (ix2 p k))
  refine congrArg (xcOf V c) (funext fun a => Fin.ext ?_)
  match a with
  | ⟨0, _⟩ => show 5000 * t.val + p.val = win0_9.index t (0 : Fin 2) * 5000 + 1 * p.val; omega
  | ⟨1, _⟩ => show k.val = win0_9.index t (1 : Fin 2) * 256 + 1 * k.val; omega

/-! ## The blocks cover the arrays -/

theorem mem_blk_z (t : Fin cfg0.N) (i : S50000x128.Idx) :
    i ∈ ((cfg0.win 8).blk t).view.set ↔ ∀ a : Fin 2, win0_8.index t a * S5000x128.size a ≤ (i a).val
      ∧ (i a).val < win0_8.index t a * S5000x128.size a + S5000x128.size a := by
  show i ∈ ((View.whole main_v2_0).slice (win0_8.rect t)).set ↔ _
  rw [View.set_slice_whole, Rect.mem_set_unit]
  exact Iff.rfl

theorem mem_blk_xc (t : Fin cfg0.N) (i : S50000x256.Idx) :
    i ∈ ((cfg0.win 9).blk t).view.set ↔ ∀ a : Fin 2, win0_9.index t a * S5000x256.size a ≤ (i a).val
      ∧ (i a).val < win0_9.index t a * S5000x256.size a + S5000x256.size a := by
  show i ∈ ((View.whole main_v2_1).slice (win0_9.rect t)).set ↔ _
  rw [View.set_slice_whole, Rect.mem_set_unit]
  exact Iff.rfl

/-- The point whose block holds row r: r / 5000. -/
def pointOf (r : Nat) (hr : r < 50000) : Fin cfg0.N := ⟨r / 5000, by rw [show cfg0.N = 10 from N_0]; omega⟩

theorem cover_z (i : S50000x128.Idx) : ∃ t : Fin cfg0.N, (cfg0.win 8).flush t = true ∧ i ∈ ((cfg0.win 8).blk t).view.set := by
  have h0 : (i 0).val < 50000 := idx2_lt0 i
  have h1 : (i 1).val < 128 := idx2_lt1 i
  refine ⟨pointOf (i 0).val h0, flush0_8 _, ?_⟩
  obtain ⟨-, -, -, -, -, -, -, -, -, -, -, -, -, -, -, -, e0, e1, -⟩ := idx_facts (pointOf (i 0).val h0)
  have ev : (pointOf (i 0).val h0).val = (i 0).val / 5000 := rfl
  rw [mem_blk_z]
  intro a
  match a with
  | ⟨0, _⟩ => show win0_8.index _ (0 : Fin 2) * 5000 ≤ (i 0).val ∧ (i 0).val < win0_8.index _ (0 : Fin 2) * 5000 + 5000; omega
  | ⟨1, _⟩ => show win0_8.index _ (1 : Fin 2) * 128 ≤ (i 1).val ∧ (i 1).val < win0_8.index _ (1 : Fin 2) * 128 + 128; omega

theorem cover_xc (i : S50000x256.Idx) : ∃ t : Fin cfg0.N, (cfg0.win 9).flush t = true ∧ i ∈ ((cfg0.win 9).blk t).view.set := by
  have h0 : (i 0).val < 50000 := idx2_lt0 i
  have h1 : (i 1).val < 256 := idx2_lt1 i
  refine ⟨pointOf (i 0).val h0, flush0_9 _, ?_⟩
  obtain ⟨-, -, -, -, -, -, -, -, -, -, -, -, -, -, -, -, -, -, e0, e1⟩ := idx_facts (pointOf (i 0).val h0)
  have ev : (pointOf (i 0).val h0).val = (i 0).val / 5000 := rfl
  rw [mem_blk_xc]
  intro a
  match a with
  | ⟨0, _⟩ => show win0_9.index _ (0 : Fin 2) * 5000 ≤ (i 0).val ∧ (i 0).val < win0_9.index _ (0 : Fin 2) * 5000 + 5000; omega
  | ⟨1, _⟩ => show win0_9.index _ (1 : Fin 2) * 256 ≤ (i 1).val ∧ (i 1).val < win0_9.index _ (1 : Fin 2) * 256 + 256; omega

/-! ## The two result arrays after the call -/

theorem z_array (c : Dev nD) : (dat0 V c).arrAt 8 cfg0.N = zOf V c :=
  (dat0 V c).arrAt_eq_of_cover 8 (zOf V c) (fun t _ => flushed_z V c t) cover_z

theorem xc_array (c : Dev nD) : (dat0 V c).arrAt 9 cfg0.N = xcOf V c :=
  (dat0 V c).arrAt_eq_of_cover 9 (xcOf V c) (fun t _ => flushed_xc V c t) cover_xc

end Cert.KernelIdeal.GatesRegion

end
-- ==== Proof.BlendRegion.lean ====
/-
  The second pallas_call, as a whole array.

  Its grid has ten points; point t works on rows 5000·t … 5000·t + 4999 of the neighbour mean, of the candidate's
  input, of the update gate z and of h, on the two weight matrices and the bias row whole, and writes rows 5000·t … of
  its result. The blend is row-local (GatedUpdate.lean), so what point t writes back is block t of

    blend mean xc z h W_l W_r b_l = (1 − z) ⊙ (mean·W_l + b_l + xc·W_r) + z ⊙ h

  of the arrays the call finds, and the ten blocks cover all 50000 rows: after the call the result array IS that
  function. Stated at any contents `V` of the buffers when the call is entered.
-/
import proofs.«103373_j38147899523553_1_alg».proof.Proof.Gen.KernelIdeal.Frame
import proofs.«103373_j38147899523553_1_alg».proof.Proof.BodyValues
import Idealize.ShloMosaic.Lib.Pipeline.Value

set_option maxRecDepth 16384

noncomputable section

namespace Cert.KernelIdeal.BlendRegion

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.GatedUpdate Cert.Lib.Rowwise

variable (V : (c : Dev nD) → (b : Ref sig .tc) → Buf (Elt Ideal) ((c : Thread nD τ).loc b))

theorem hz : (![0, 0] : Fin 2 → Nat) = fun _ => 0 := funext fun a => by fin_cases a <;> rfl

/-- The grid has ten points. -/
theorem lt10 (t : Fin cfg1.N) : t.val < 10 := by
  have h := t.isLt
  have hN : cfg1.N = 10 := N_1
  omega

/-- Row p of block t is row 5000·t + p of the array. -/
def blockRow (t : Fin cfg1.N) (p : Fin 5000) : Fin 50000 := ⟨5000 * t.val + p.val, by have := lt10 t; omega⟩

/-- The printed index maps, decided once over the grid: the four row windows and the result sit at block (t, 0), the
    weights and the bias row at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-! ## The input blocks, read -/

/-- The neighbour mean's block at point t is rows 5000·t … of it. -/
theorem mean_rows (c : Dev nD) (t : Fin cfg1.N) : RowsOf (blockRow t) (iblk1 V c 0 t) (V c main_v25) := fun p k => by
  have e := idx_facts t
  show V c main_v25 (((cfg1.win 0).blk t).view.emb (ix2 p k)) = V c main_v25 (ix2 (blockRow t p) k)
  refine congrArg (V c main_v25) (funext fun a => Fin.ext ?_)
  match a with
  | ⟨0, _⟩ => show win1_0.index t (0 : Fin 2) * 5000 + 1 * p.val = 5000 * t.val + p.val; omega
  | ⟨1, _⟩ => show win1_0.index t (1 : Fin 2) * 256 + 1 * k.val = k.val; omega

/-- The candidate input's block at point t is rows 5000·t … of it. -/
theorem xc_rows (c : Dev nD) (t : Fin cfg1.N) : RowsOf (blockRow t) (iblk1 V c 1 t) (V c main_v2_1) := fun p k => by
  have e := idx_facts t
  show V c main_v2_1 (((cfg1.win 1).blk t).view.emb (ix2 p k)) = V c main_v2_1 (ix2 (blockRow t p) k)
  refine congrArg (V c main_v2_1) (funext fun a => Fin.ext ?_)
  match a with
  | ⟨0, _⟩ => show win1_1.index t (0 : Fin 2) * 5000 + 1 * p.val = 5000 * t.val + p.val; omega
  | ⟨1, _⟩ => show win1_1.index t (1 : Fin 2) * 256 + 1 * k.val = k.val; omega

/-- The update gate's block at point t is rows 5000·t … of it. -/
theorem z_rows (c : Dev nD) (t : Fin cfg1.N) : RowsOf (blockRow t) (iblk1 V c 2 t) (V c main_v2_0) := fun p k => by
  have e := idx_facts t
  show V c main_v2_0 (((cfg1.win 2).blk t).view.emb (ix2 p k)) = V c main_v2_0 (ix2 (blockRow t p) k)
  refine congrArg (V c main_v2_0) (funext fun a => Fin.ext ?_)
  match a with
  | ⟨0, _⟩ => show win1_2.index t (0 : Fin 2) * 5000 + 1 * p.val = 5000 * t.val + p.val; omega
  | ⟨1, _⟩ => show win1_2.index t (1 : Fin 2) * 128 + 1 * k.val = k.val; omega

/-- h's block at point t is rows 5000·t … of h. -/
theorem h_rows (c : Dev nD) (t : Fin cfg1.N) : RowsOf (blockRow t) (iblk1 V c 3 t) (V c main_arg2) := fun p k => by
  have e := idx_facts t
  show V c main_arg2 (((cfg1.win 3).blk t).view.emb (ix2 p k)) = V c main_arg2 (ix2 (blockRow t p) k)
  refine congrArg (V c main_arg2) (funext fun a => Fin.ext ?_)
  match a with
  | ⟨0, _⟩ => show win1_3.index t (0 : Fin 2) * 5000 + 1 * p.val = 5000 * t.val + p.val; omega
  | ⟨1, _⟩ => show win1_3.index t (1 : Fin 2) * 128 + 1 * k.val = k.val; omega

/-- A weight matrix's, and the bias row's, block is the whole of it. -/
theorem w4_whole (c : Dev nD) (t : Fin cfg1.N) : iblk1 V c 4 t = V c main_arg9 := funext fun y => by
  have e := idx_facts t
  show V c main_arg9 (((cfg1.win 4).blk t).view.emb y) = V c main_arg9 y
  refine congrArg (V c main_arg9) (funext fun a => Fin.ext ?_)
  match a with
  | ⟨0, _⟩ => show win1_4.index t (0 : Fin 2) * 256 + 1 * (y 0).val = (y 0).val; omega
  | ⟨1, _⟩ => show win1_4.index t (1 : Fin 2) * 128 + 1 * (y 1).val = (y 1).val; omega

theorem w5_whole (c : Dev nD) (t : Fin cfg1.N) : iblk1 V c 5 t = V c main_v26 := funext fun y => by
  have e := idx_facts t
  show V c main_v26 (((cfg1.win 5).blk t).view.emb y) = V c main_v26 y
  refine congrArg (V c main_v26) (funext fun a => Fin.ext ?_)
  match a with
  | ⟨0, _⟩ => show win1_5.index t (0 : Fin 2) * 1 + 1 * (y 0).val = (y 0).val; omega
  | ⟨1, _⟩ => show win1_5.index t (1 : Fin 2) * 128 + 1 * (y 1).val = (y 1).val; omega

theorem w6_whole (c : Dev nD) (t : Fin cfg1.N) : iblk1 V c 6 t = V c main_arg11 := funext fun y => by
  have e := idx_facts t
  show V c main_arg11 (((cfg1.win 6).blk t).view.emb y) = V c main_arg11 y
  refine congrArg (V c main_arg11) (funext fun a => Fin.ext ?_)
  match a with
  | ⟨0, _⟩ => show win1_6.index t (0 : Fin 2) * 256 + 1 * (y 0).val = (y 0).val; omega
  | ⟨1, _⟩ => show win1_6.index t (1 : Fin 2) * 128 + 1 * (y 1).val = (y 1).val; omega

/-! ## The result as a function of the arrays the call finds -/

/-- The blended state of the arrays. -/
abbrev outOf (c : Dev nD) : Arr 50000 128 :=
  blend (V c main_v25) (V c main_v2_1) (V c main_v2_0) (V c main_arg2) (V c main_arg9) (V c main_arg11)
    (fun q => V c main_v26 (ix2 0 q))

/-- What point t writes back is block t of the blended state. -/
theorem flushed_out (c : Dev nD) (t : Fin cfg1.N) :
    (dat1 V c).flushed 7 t = ((cfg1.win 7).blk t).view.read (Elt Ideal) (outOf V c) := by
  show (cfg1.win 7).cut (grid1.coords t) ((dat1 V c).after 7 t) = _
  rw [after1_7]
  unfold out1_7
  rw [View.canon_unit_zero hz]
  simp only [View.ld_unit_zero (S := S5000x256) hz, View.ld_unit_zero (S := S5000x128) hz, View.ld_unit_zero (S := S256x128) hz,
    View.ld_unit_zero (S := S1x128) hz]
  rw [Body.blend_body, w4_whole V c t, w5_whole V c t, w6_whole V c t]
  have e := idx_facts t
  funext j
  obtain ⟨p, q, rfl⟩ : ∃ (p : Fin 5000) (q : Fin 128), j = ix2 p q := ⟨j 0, j 1, eq_ix2 j⟩
  refine (blend_rows (mean_rows V c t) (xc_rows V c t) (z_rows V c t) (h_rows V c t) (V c main_arg9) (V c main_arg11)
    (fun q => V c main_v26 (ix2 0 q)) p q).trans ?_
  show outOf V c (ix2 (blockRow t p) q) = outOf V c (((cfg1.win 7).blk t).view.emb (ix2 p q))
  refine congrArg (outOf V c) (funext fun a => Fin.ext ?_)
  match a with
  | ⟨0, _⟩ => show 5000 * t.val + p.val = win1_7.index t (0 : Fin 2) * 5000 + 1 * p.val; omega
  | ⟨1, _⟩ => show q.val = win1_7.index t (1 : Fin 2) * 128 + 1 * q.val; omega

/-! ## The blocks cover the array -/

theorem mem_blk_out (t : Fin cfg1.N) (i : S50000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v27).slice (win1_7.rect t)).set ↔ _
  rw [View.set_slice_whole, Rect.mem_set_unit]
  exact Iff.rfl

/-- The point whose block holds row r: r / 5000. -/
def pointOf (r : Nat) (hr : r < 50000) : Fin cfg1.N := ⟨r / 5000, by rw [show cfg1.N = 10 from N_1]; omega⟩

theorem cover_out (i : S50000x128.Idx) : ∃ t : Fin cfg1.N, (cfg1.win 7).flush t = true ∧ i ∈ ((cfg1.win 7).blk t).view.set := by
  have h0 : (i 0).val < 50000 := idx2_lt0 i
  have h1 : (i 1).val < 128 := idx2_lt1 i
  refine ⟨pointOf (i 0).val h0, flush1_7 _, ?_⟩
  have e := idx_facts (pointOf (i 0).val h0)
  have ev : (pointOf (i 0).val h0).val = (i 0).val / 5000 := rfl
  rw [mem_blk_out]
  intro a
  match a with
  | ⟨0, _⟩ => show win1_7.index _ (0 : Fin 2) * 5000 ≤ (i 0).val ∧ (i 0).val < win1_7.index _ (0 : Fin 2) * 5000 + 5000; omega
  | ⟨1, _⟩ => show win1_7.index _ (1 : Fin 2) * 128 ≤ (i 1).val ∧ (i 1).val < win1_7.index _ (1 : Fin 2) * 128 + 128; omega

/-! ## The result array after the call -/

theorem out_array (c : Dev nD) : (dat1 V c).arrAt 7 cfg1.N = outOf V c :=
  (dat1 V c).arrAt_eq_of_cover 7 (outOf V c) (fun t _ => flushed_out V c t) cover_out

end Cert.KernelIdeal.BlendRegion

end
-- ==== Proof.BetweenRegions.lean ====
/-
  What the two pallas_calls find in their input buffers.

  Before the first call the program only reshapes the two gate biases [128] into rows [1, 128]; every argument array
  is as launched. Between the calls it computes, from the first call's second result (the candidate's input) and the
  edge list, the neighbour mean — rows gathered at the source nodes, added up at the destination nodes, divided by
  the clamped in-degree — and reshapes the third bias into a row; the first call's two results, h and the two
  remaining weight matrices pass through untouched. The neighbour mean is kept as ONE function `nbrMean` of the
  candidate input and the edge list and is never opened: the reference applies the same operations.
-/
import proofs.«103373_j38147899523553_1_alg».proof.Proof.Gen.KernelIdeal.Frame
import Idealize.ShloMosaic.Lib.StableHlo.Run
import Idealize.ShloMosaic.Lib.ValueLayout
import Idealize.ShloMosaic.Lib.ValueIdx

set_option maxRecDepth 16384

noncomputable section

namespace Cert.KernelIdeal.Between

open Idealize.ShloMosaic Idealize.ShloMosaic.TcCoe Idealize.ShloMosaic.ValueIdx Idealize.ShloMosaic.StableHlo
open Idealize.SL Idealize.SL.Sem
open Cert.KernelIdeal Cert.KernelIdeal.Gen

/-- A bias vector reshaped into a row, read at (0, q): its entry q. -/
theorem row_at (b : (⟨S128, .f32⟩ : BufTy).Contents (Elt Ideal)) (q : Fin 128) :
    shapeCast S1x128 b shapeCasts_S128_S1x128 (ix2 (0 : Fin 1) q) = b (ix1 q) :=
  shapeCast_a_1a_apply b shapeCasts_S128_S1x128 0 q

/-- The source nodes of the edges as a column, a negative node number counted from the end. -/
def srcCol (e : (⟨S2x800000, .i32⟩ : BufTy).Contents (Elt Ideal)) : (⟨S800000x1, .i32⟩ : BufTy).Contents (Elt Ideal) :=
  broadcastInDim S800000x1 ![0] bcast_S800000_S800000x1_0
    (select
      (cmpi .slt (shapeCast S800000 (extractStridedSlice S1x800000 ![0, 0] e slices_S2x800000_S1x800000_0_0) shapeCasts_S1x800000_S800000)
        (broadcastInDim S800000 ![] bcast_S_S800000 (constantI S_ 32 0#32)))
      (addi (shapeCast S800000 (extractStridedSlice S1x800000 ![0, 0] e slices_S2x800000_S1x800000_0_0) shapeCasts_S1x800000_S800000)
        (broadcastInDim S800000 ![] bcast_S_S800000 (constantI S_ 32 50000#32)))
      (shapeCast S800000 (extractStridedSlice S1x800000 ![0, 0] e slices_S2x800000_S1x800000_0_0) shapeCasts_S1x800000_S800000))

/-- The destination nodes of the edges as a column. -/
def dstCol (e : (⟨S2x800000, .i32⟩ : BufTy).Contents (Elt Ideal)) : (⟨S800000x1, .i32⟩ : BufTy).Contents (Elt Ideal) :=
  broadcastInDim S800000x1 ![0] bcast_S800000_S800000x1_0
    (shapeCast S800000 (extractStridedSlice S1x800000 ![1, 0] e slices_S2x800000_S1x800000_1_0) shapeCasts_S1x800000_S800000)

/-- The neighbour mean of an array xc of one row per node along the edge list e: rows of xc gathered at the source
    nodes, added up at the destination nodes, divided by the number of edges into the node or by one. One function,
    never opened. -/
def nbrMean (xc : (⟨S50000x256, .f32⟩ : BufTy).Contents (Elt Ideal)) (e : (⟨S2x800000, .i32⟩ : BufTy).Contents (Elt Ideal)) : (⟨S50000x256, .f32⟩ : BufTy).Contents (Elt Ideal) :=
  Host.divf (F := Ideal)
    (Host.scatterAdd scatter_S50000x256_S800000x1_S800000x256_1_0_0_1
      (broadcastInDim S50000x256 ![] bcast_S_S50000x256 (constant (F := Ideal) S_ .f32 0x00000000#32)) (dstCol e)
      (Host.gather gather_S50000x256_S800000x1_S800000x256_1_0_n_n_0_1_1256 xc (srcCol e)))
    (broadcastInDim S50000x256 ![0, 1] bcast_S50000x1_S50000x256_0_1
      (broadcastInDim S50000x1 ![0] bcast_S50000_S50000x1_0
        (maximumf (F := Ideal)
          (Host.scatterAdd scatter_S50000_S800000x1_S800000_n_0_0_1
            (broadcastInDim S50000 ![] bcast_S_S50000 (constant (F := Ideal) S_ .f32 0x00000000#32)) (dstCol e)
            (broadcastInDim S800000 ![] bcast_S_S800000 (constant (F := Ideal) S_ .f32 0x3F800000#32)))
          (broadcastInDim S50000 ![] bcast_S_S50000 (constant (F := Ideal) S_ .f32 0x3F800000#32)))))

variable (m : (ℓ : Loc nD τ sig) → Buf (Elt Ideal) ℓ) (ρ : Dev nD → PrngReg)

/-! ## What the first call finds -/

theorem entry0_arg0 (c : Dev nD) : V1 m ρ c main_arg0 = m ((c : Thread nD τ).loc main_arg0) := by
  show StableHlo.after hostOps0 (W0 m ρ c) (Proc.devRef .tc main_arg0) = _
  after_results
  all_goals rfl
theorem entry0_arg2 (c : Dev nD) : V1 m ρ c main_arg2 = m ((c : Thread nD τ).loc main_arg2) := by
  show StableHlo.after hostOps0 (W0 m ρ c) (Proc.devRef .tc main_arg2) = _
  after_results
  all_goals rfl
theorem entry0_arg3 (c : Dev nD) : V1 m ρ c main_arg3 = m ((c : Thread nD τ).loc main_arg3) := by
  show StableHlo.after hostOps0 (W0 m ρ c) (Proc.devRef .tc main_arg3) = _
  after_results
  all_goals rfl
theorem entry0_arg5 (c : Dev nD) : V1 m ρ c main_arg5 = m ((c : Thread nD τ).loc main_arg5) := by
  show StableHlo.after hostOps0 (W0 m ρ c) (Proc.devRef .tc main_arg5) = _
  after_results
  all_goals rfl
theorem entry0_arg6 (c : Dev nD) : V1 m ρ c main_arg6 = m ((c : Thread nD τ).loc main_arg6) := by
  show StableHlo.after hostOps0 (W0 m ρ c) (Proc.devRef .tc main_arg6) = _
  after_results
  all_goals rfl
theorem entry0_arg8 (c : Dev nD) : V1 m ρ c main_arg8 = m ((c : Thread nD τ).loc main_arg8) := by
  show StableHlo.after hostOps0 (W0 m ρ c) (Proc.devRef .tc main_arg8) = _
  after_results
  all_goals rfl
theorem entry0_bias_r (c : Dev nD) :
    V1 m ρ c main_v0 = shapeCast S1x128 (m ((c : Thread nD τ).loc main_arg4)) shapeCasts_S128_S1x128 := by
  show StableHlo.after hostOps0 (W0 m ρ c) (Proc.devRef .tc main_v0) = _
  after_results
  all_goals rfl
theorem entry0_bias_z (c : Dev nD) :
    V1 m ρ c main_v1 = shapeCast S1x128 (m ((c : Thread nD τ).loc main_arg7)) shapeCasts_S128_S1x128 := by
  show StableHlo.after hostOps0 (W0 m ρ c) (Proc.devRef .tc main_v1) = _
  after_results
  all_goals rfl

/-! ## What is there after the first call, at the buffers the rest of the program reads -/

theorem mid_arg1 (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  after_results
  all_goals rfl
theorem mid_arg9 (c : Dev nD) : W2 m ρ c (Proc.devRef .tc main_arg9) = m ((c : Thread nD τ).loc main_arg9) := by
  refine (W2_of_ne m ρ c main_arg9 (by decide)).trans ?_
  show StableHlo.after hostOps0 (W0 m ρ c) (Proc.devRef .tc main_arg9) = _
  after_results
  all_goals rfl
theorem mid_arg10 (c : Dev nD) : W2 m ρ c (Proc.devRef .tc main_arg10) = m ((c : Thread nD τ).loc main_arg10) := by
  refine (W2_of_ne m ρ c main_arg10 (by decide)).trans ?_
  show StableHlo.after hostOps0 (W0 m ρ c) (Proc.devRef .tc main_arg10) = _
  after_results
  all_goals rfl
theorem mid_arg11 (c : Dev nD) : W2 m ρ c (Proc.devRef .tc main_arg11) = m ((c : Thread nD τ).loc main_arg11) := by
  refine (W2_of_ne m ρ c main_arg11 (by decide)).trans ?_
  show StableHlo.after hostOps0 (W0 m ρ c) (Proc.devRef .tc main_arg11) = _
  after_results
  all_goals rfl
/-- h is an input of the first call: it is as the call found it. -/
theorem mid_arg2 (c : Dev nD) : W2 m ρ c (Proc.devRef .tc main_arg2) = m ((c : Thread nD τ).loc main_arg2) :=
  (W2_arr m ρ c 1).trans ((((dat0 (V1 m ρ) c).arrAt_in 1 rfl _).trans (A_eq0 (V1 m ρ) c 1)).trans (entry0_arg2 m ρ c))
/-- The first call's results are what its write-backs leave. -/
theorem mid_z (c : Dev nD) : W2 m ρ c (Proc.devRef .tc main_v2_0) = (dat0 (V1 m ρ) c).arrAt 8 cfg0.N := W2_arr m ρ c 8
theorem mid_xc (c : Dev nD) : W2 m ρ c (Proc.devRef .tc main_v2_1) = (dat0 (V1 m ρ) c).arrAt 9 cfg0.N := W2_arr m ρ c 9

/-! ## What the second call finds -/

theorem entry1_z (c : Dev nD) : V3 m ρ c main_v2_0 = W2 m ρ c (Proc.devRef .tc main_v2_0) := by
  show StableHlo.after hostOps1 (W2 m ρ c) (Proc.devRef .tc main_v2_0) = _
  after_results
  all_goals rfl
theorem entry1_xc (c : Dev nD) : V3 m ρ c main_v2_1 = W2 m ρ c (Proc.devRef .tc main_v2_1) := by
  show StableHlo.after hostOps1 (W2 m ρ c) (Proc.devRef .tc main_v2_1) = _
  after_results
  all_goals rfl
theorem entry1_h (c : Dev nD) : V3 m ρ c main_arg2 = W2 m ρ c (Proc.devRef .tc main_arg2) := by
  show StableHlo.after hostOps1 (W2 m ρ c) (Proc.devRef .tc main_arg2) = _
  after_results
  all_goals rfl
theorem entry1_wl (c : Dev nD) : V3 m ρ c main_arg9 = W2 m ρ c (Proc.devRef .tc main_arg9) := by
  show StableHlo.after hostOps1 (W2 m ρ c) (Proc.devRef .tc main_arg9) = _
  after_results
  all_goals rfl
theorem entry1_wr (c : Dev nD) : V3 m ρ c main_arg11 = W2 m ρ c (Proc.devRef .tc main_arg11) := by
  show StableHlo.after hostOps1 (W2 m ρ c) (Proc.devRef .tc main_arg11) = _
  after_results
  all_goals rfl
theorem entry1_bias (c : Dev nD) :
    V3 m ρ c main_v26 = shapeCast S1x128 (W2 m ρ c (Proc.devRef .tc main_arg10)) shapeCasts_S128_S1x128 := by
  show StableHlo.after hostOps1 (W2 m ρ c) (Proc.devRef .tc main_v26) = _
  after_results
  all_goals rfl
set_option maxHeartbeats 4000000 in
/-- The second call's first operand is the neighbour mean of the first call's second result along the edge list. -/
theorem entry1_mean (c : Dev nD) :
    V3 m ρ c main_v25 = nbrMean (W2 m ρ c (Proc.devRef .tc main_v2_1)) (W2 m ρ c (Proc.devRef .tc main_arg1)) := by
  show StableHlo.after hostOps1 (W2 m ρ c) (Proc.devRef .tc main_v25) = _
  after_results_simp
  all_goals rfl

end Cert.KernelIdeal.Between

end
-- ==== Proof.KernelValue.lean ====
/-
  The kernel's result array as one function of the twelve argument arrays.

  Composing the two pallas_calls with the host operations around them: the first call leaves the update gate z and
  the candidate's input xc = [ x | r ⊙ h ] of the launch arrays; the host operations between the calls take the
  neighbour mean of xc along the edge list; the second call leaves the blend of that mean, xc, z and h. So every weakly
  fair execution ends with the result buffer at

    blend (nbrMean xc e) xc z h W_l W_r b_l,   xc = joined x (gate x h W_xr W_hr b_xr) h,   z = gate x h W_xz W_hz b_xz

  of the launch contents, and the arguments unchanged.
-/
import proofs.«103373_j38147899523553_1_alg».proof.Proof.TwoStageRun
import proofs.«103373_j38147899523553_1_alg».proof.Proof.GatesRegion
import proofs.«103373_j38147899523553_1_alg».proof.Proof.BlendRegion
import proofs.«103373_j38147899523553_1_alg».proof.Proof.BetweenRegions

set_option maxRecDepth 16384

noncomputable section

namespace Cert.KernelIdeal.Whole

open Idealize.ShloMosaic Idealize.ShloMosaic.TcCoe Idealize.ShloMosaic.ValueIdx
open Idealize.SL Idealize.SL.Sem
open Cert.KernelIdeal Cert.KernelIdeal.Gen Cert.GatedUpdate

variable (m : (ℓ : Loc nD τ sig) → Buf (Elt Ideal) ℓ) (ρ : Dev nD → PrngReg)

/-- The candidate's input [ x | r ⊙ h ] of the launch arrays. -/
def xcOf (c : Dev nD) : Arr 50000 256 :=
  joined (m ((c : Thread nD τ).loc main_arg0)) (gate (m ((c : Thread nD τ).loc main_arg0)) (m ((c : Thread nD τ).loc main_arg2)) (m ((c : Thread nD τ).loc main_arg3)) (m ((c : Thread nD τ).loc main_arg5)) (fun q => (m ((c : Thread nD τ).loc main_arg4)) (ix1 q))) (m ((c : Thread nD τ).loc main_arg2))

/-- The update gate z of the launch arrays. -/
def zOf (c : Dev nD) : Arr 50000 128 :=
  gate (m ((c : Thread nD τ).loc main_arg0)) (m ((c : Thread nD τ).loc main_arg2)) (m ((c : Thread nD τ).loc main_arg6)) (m ((c : Thread nD τ).loc main_arg8)) (fun q => (m ((c : Thread nD τ).loc main_arg7)) (ix1 q))

/-- The whole update of the launch arrays. -/
def resultOf (c : Dev nD) : Arr 50000 128 :=
  blend (Between.nbrMean (xcOf m c) (m ((c : Thread nD τ).loc main_arg1))) (xcOf m c) (zOf m c) (m ((c : Thread nD τ).loc main_arg2)) (m ((c : Thread nD τ).loc main_arg9)) (m ((c : Thread nD τ).loc main_arg11)) (fun q => (m ((c : Thread nD τ).loc main_arg10)) (ix1 q))

/-- After the first call its first result is the update gate of the launch arrays. -/
theorem first_z (c : Dev nD) : (dat0 (V1 m ρ) c).arrAt 8 cfg0.N = zOf m c := by
  rw [GatesRegion.z_array]
  show gate (V1 m ρ c main_arg0) (V1 m ρ c main_arg2) (V1 m ρ c main_arg6) (V1 m ρ c main_arg8)
      (fun q => V1 m ρ c main_v1 (ix2 (0 : Fin 1) q)) = zOf m c
  have hb : (fun q : Fin 128 => V1 m ρ c main_v1 (ix2 (0 : Fin 1) q)) = fun q => (m ((c : Thread nD τ).loc main_arg7)) (ix1 q) :=
    funext fun q => by rw [Between.entry0_bias_z]; exact Between.row_at _ q
  rw [hb, Between.entry0_arg0, Between.entry0_arg2, Between.entry0_arg6, Between.entry0_arg8]
  rfl

/-- After the first call its second result is the candidate's input of the launch arrays. -/
theorem first_xc (c : Dev nD) : (dat0 (V1 m ρ) c).arrAt 9 cfg0.N = xcOf m c := by
  rw [GatesRegion.xc_array]
  show joined (V1 m ρ c main_arg0) (gate (V1 m ρ c main_arg0) (V1 m ρ c main_arg2) (V1 m ρ c main_arg3) (V1 m ρ c main_arg5)
      (fun q => V1 m ρ c main_v0 (ix2 (0 : Fin 1) q))) (V1 m ρ c main_arg2) = xcOf m c
  have hb : (fun q : Fin 128 => V1 m ρ c main_v0 (ix2 (0 : Fin 1) q)) = fun q => (m ((c : Thread nD τ).loc main_arg4)) (ix1 q) :=
    funext fun q => by rw [Between.entry0_bias_r]; exact Between.row_at _ q
  rw [hb, Between.entry0_arg0, Between.entry0_arg2, Between.entry0_arg3, Between.entry0_arg5]
  rfl

/-- What the last segment boundary holds at the result buffer: the whole update of the launch arrays. -/
theorem result_array (c : Dev nD) : W4 m ρ c (Proc.devRef .tc main_v27) = resultOf m c := by
  refine (W4_arr m ρ c 7).trans ?_
  rw [BlendRegion.out_array]
  show blend (V3 m ρ c main_v25) (V3 m ρ c main_v2_1) (V3 m ρ c main_v2_0) (V3 m ρ c main_arg2) (V3 m ρ c main_arg9)
      (V3 m ρ c main_arg11) (fun q => V3 m ρ c main_v26 (ix2 (0 : Fin 1) q)) = resultOf m c
  have hb : (fun q : Fin 128 => V3 m ρ c main_v26 (ix2 (0 : Fin 1) q)) = fun q => (m ((c : Thread nD τ).loc main_arg10)) (ix1 q) :=
    funext fun q => by rw [Between.entry1_bias, Between.mid_arg10]; exact Between.row_at _ q
  rw [hb, Between.entry1_mean, Between.entry1_xc, Between.entry1_z, Between.entry1_h, Between.entry1_wl, Between.entry1_wr,
    Between.mid_xc, Between.mid_z, Between.mid_arg1, Between.mid_arg2, Between.mid_arg9, Between.mid_arg11,
    first_xc, first_z]
  rfl

/-- THE KERNEL'S RUN: every weakly fair execution terminates with the result buffer at the whole update of the launch
    arrays and the twelve arguments unchanged. -/
theorem run : θ_run defs (onTc (τ := τ) (main (F := Ideal))) ⟨m, fun _ => 0, ρ⟩ (fun r => ∀ c : Dev nD,
      r.2.mem ((c.tc : Thread nD τ).loc main_v27) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (result_array m ρ c), (h c).2⟩) (TwoStage.run_arrays m ρ)

end Cert.KernelIdeal.Whole

end
-- ==== Proof.ReferenceStages.lean ====
/-
  The reference's stages are the gated update's three maps.

  The reference computes, over whole arrays: the two gates as 1 / (1 + e^(−u)) of u = x·W + b + h·W, the candidate's
  input as x beside (reset gate ⊙ h), the neighbour mean of that array's rows along the edge list, and the blend
  (1 − z) ⊙ (mean·W_l + b_l + xc·W_r) + z ⊙ h. On the extended reals the host's matrix product is the plain sum of
  products, a bias vector spread over the rows is its entry in that column, the f32 word of one is the number 1, and
  1 / (1 + e^(−u)) is σ(u): so the stages are `gate`, `joined` and `blend` (GatedUpdate.lean), the bias given entry by
  entry. The neighbour mean — a gather along the source nodes, a scatter-add along the destination nodes, a division
  by the clamped in-degree — is kept as ONE function `nbrMean` of the candidate input and the edge list, never opened:
  the kernel's program applies the same operations between its two calls.
-/
import proofs.«103373_j38147899523553_1_alg».proof.Proof.Gen.ReferenceIdeal.Read
import proofs.«103373_j38147899523553_1_alg».proof.Proof.GatedUpdate
import proofs.«103373_j38147899523553_1_alg».proof.Proof.LibRowsCols
import Idealize.ShloMosaic.Lib.IdealHost

noncomputable section

namespace Cert.ReferenceIdeal.Stages

open Idealize.ShloMosaic Idealize.ShloMosaic.ValueIdx
open Cert.ReferenceIdeal Cert.ReferenceIdeal.Gen Cert.ReferenceIdeal.Read Cert.GatedUpdate Cert.Dense Cert.Lib.Rowwise

/-- The [50000, 128] × [128, 128] record contracts the one shared axis: rows times columns. -/
theorem rc128 : RowsCols (R := 50000) (K := 128) (N := 128) dot_S50000x128_S128x128_S50000x128_1_0_0_1_n_n :=
  ⟨rfl, rfl, fun _ _ => rfl, fun _ _ => rfl, fun _ _ => rfl, fun _ _ => rfl⟩

/-- The [50000, 256] × [256, 128] record likewise. -/
theorem rc256 : RowsCols (R := 50000) (K := 256) (N := 128) dot_S50000x256_S256x128_S50000x128_1_0_0_1_n_n :=
  ⟨rfl, rfl, fun _ _ => rfl, fun _ _ => rfl, fun _ _ => rfl, fun _ _ => rfl⟩

/-- A bias vector made a row and spread over the rows, read at i: its entry in i's column. -/
theorem bias_at (b : FVec Ideal S128 .f32) (i : S50000x128.Idx) :
    val_main_v2 (F := Ideal) b i = b (ix1 (i 1)) :=
  (val_main_v2_apply (F := Ideal) b i).trans ((val_main_v1_apply (F := Ideal) b _).trans
    (congrArg b (funext fun a => match a with | ⟨0, _⟩ => rfl)))

/-- The f32 word of one spread over an array, read anywhere: the number 1. -/
theorem ones_at (i : S50000x128.Idx) : val_main_v8 (F := Ideal) i = 1 :=
  (val_main_v8_apply i).trans ((val_main_cst_apply _).trans Ideal.ofBits_one_f32)

/-- 1 / (1 + e^(−(x·Wx + b + h·Wh))) as the host spells it is `gate`. -/
theorem gate_host (x h : FVec Ideal S50000x128 .f32) (Wx Wh : FVec Ideal S128x128 .f32) (b : FVec Ideal S128 .f32) :
    Host.divf (F := Ideal) (val_main_v8 (F := Ideal)) (addf (val_main_v8 (F := Ideal)) (Host.exp (Host.negf (addf (addf
        (Host.dotGeneral (F := Ideal) (φ₁ := .f32) (φ₂ := .f32) dot_S50000x128_S128x128_S50000x128_1_0_0_1_n_n none x Wx) (val_main_v2 (F := Ideal) b))
        (Host.dotGeneral (F := Ideal) (φ₁ := .f32) (φ₂ := .f32) dot_S50000x128_S128x128_S50000x128_1_0_0_1_n_n none h Wh)))))
      = gate x h Wx Wh (fun q => b (ix1 q)) := by
  funext i
  show FloatOps.hostDivf (F := Ideal) (φ := .f32) (val_main_v8 (F := Ideal) i) (FloatOps.addf (val_main_v8 (F := Ideal) i)
      (FloatOps.hostUnary .exp (FloatOps.hostNegf (FloatOps.addf (FloatOps.addf
        (Host.dotGeneral (F := Ideal) (φ₁ := .f32) (φ₂ := .f32) dot_S50000x128_S128x128_S50000x128_1_0_0_1_n_n none x Wx i) (val_main_v2 (F := Ideal) b i))
        (Host.dotGeneral (F := Ideal) (φ₁ := .f32) (φ₂ := .f32) dot_S50000x128_S128x128_S50000x128_1_0_0_1_n_n none h Wh i)))))
    = gateAt x h Wx Wh (fun q => b (ix1 q)) (i 0) (i 1)
  rw [ones_at, bias_at, dotGeneral_apply rc128, dotGeneral_apply rc128, eq_ix2 i]
  rfl

/-- The reset gate. -/
theorem reset_gate (x0 x2 : FVec Ideal S50000x128 .f32) (x3 : FVec Ideal S128x128 .f32) (x4 : FVec Ideal S128 .f32) (x5 : FVec Ideal S128x128 .f32) :
    val_main_v11 (F := Ideal) x0 x2 x3 x4 x5 = gate x0 x2 x3 x5 (fun q => x4 (ix1 q)) :=
  gate_host x0 x2 x3 x5 x4

/-- The update gate. -/
theorem update_gate (x0 x2 : FVec Ideal S50000x128 .f32) (x6 : FVec Ideal S128x128 .f32) (x7 : FVec Ideal S128 .f32) (x8 : FVec Ideal S128x128 .f32) :
    val_main_v23 (F := Ideal) x0 x2 x6 x7 x8 = gate x0 x2 x6 x8 (fun q => x7 (ix1 q)) :=
  gate_host x0 x2 x6 x8 x7

/-- x beside r ⊙ h, as the host concatenates them, is `joined`. -/
theorem joined_host (x r h : FVec Ideal S50000x128 .f32) :
    concatenate S50000x256 1 [⟨S50000x128, x⟩, ⟨S50000x128, mulf (F := Ideal) (s := S50000x128) (φ := .f32) r h⟩]
        concatenates_S50000x128_S50000x128_S50000x256_d1
      = joined x r h := by
  exact joined_of_beside x r h concatenates_S50000x128_S50000x128_S50000x256_d1

/-- The candidate's input. -/
theorem candidate_input (x0 x2 : FVec Ideal S50000x128 .f32) (x3 : FVec Ideal S128x128 .f32) (x4 : FVec Ideal S128 .f32) (x5 : FVec Ideal S128x128 .f32) :
    val_main_v25 (F := Ideal) x0 x2 x3 x4 x5 = joined x0 (gate x0 x2 x3 x5 (fun q => x4 (ix1 q))) x2 :=
  (congrArg (fun r : FVec Idealize.ShloMosaic.Ideal S50000x128 .f32 => concatenate S50000x256 1 [⟨S50000x128, x0⟩,
      ⟨S50000x128, mulf (F := Ideal) (s := S50000x128) (φ := .f32) r x2⟩] concatenates_S50000x128_S50000x128_S50000x256_d1)
    (reset_gate x0 x2 x3 x4 x5)).trans (joined_host x0 _ x2)

/-- The neighbour mean of an array xc of one row per node along the edge list e, as the host computes it: rows of xc
    gathered at the source nodes (a negative node number counted from the end), added up at the destination nodes,
    divided by the number of edges into the node or by one. One function, never opened. -/
def nbrMean (xc : FVec Ideal S50000x256 .f32) (e : IVec S2x800000 32) : FVec Ideal S50000x256 .f32 :=
  Host.divf (F := Ideal) (φ := .f32)
    (Host.scatterAdd (F := Ideal) (φ := .f32) scatter_S50000x256_S800000x1_S800000x256_1_0_0_1 (val_main_v37 (F := Ideal)) (val_main_v38 (F := Ideal) e)
      (Host.gather gather_S50000x256_S800000x1_S800000x256_1_0_n_n_0_1_1256 xc (val_main_v35 (F := Ideal) e)))
    (val_main_v47 (F := Ideal) e)

/-- The reference's mean stage is that function of its candidate input. -/
theorem mean_stage (x0 : FVec Ideal S50000x128 .f32) (x1 : IVec S2x800000 32) (x2 : FVec Ideal S50000x128 .f32) (x3 : FVec Ideal S128x128 .f32)
    (x4 : FVec Ideal S128 .f32) (x5 : FVec Ideal S128x128 .f32) :
    val_main_v48 (F := Ideal) x0 x1 x2 x3 x4 x5 = nbrMean (val_main_v25 (F := Ideal) x0 x2 x3 x4 x5) x1 := rfl

/-- (1 − z) ⊙ (mean·Wl + bl + xc·Wr) + z ⊙ h as the host spells it is `blend`. -/
theorem blend_host (mean xc : FVec Ideal S50000x256 .f32) (z h : FVec Ideal S50000x128 .f32) (Wl Wr : FVec Ideal S256x128 .f32) (bl : FVec Ideal S128 .f32) :
    addf (F := Ideal) (mulf (subf (val_main_v8 (F := Ideal)) z) (addf (addf
        (Host.dotGeneral (F := Ideal) (φ₁ := .f32) (φ₂ := .f32) dot_S50000x256_S256x128_S50000x128_1_0_0_1_n_n none mean Wl) (val_main_v2 (F := Ideal) bl))
        (Host.dotGeneral (F := Ideal) (φ₁ := .f32) (φ₂ := .f32) dot_S50000x256_S256x128_S50000x128_1_0_0_1_n_n none xc Wr))) (mulf z h)
      = blend mean xc z h Wl Wr (fun q => bl (ix1 q)) := by
  funext i
  obtain ⟨p, q, rfl⟩ : ∃ (p : Fin 50000) (q : Fin 128), i = ix2 p q := ⟨i 0, i 1, eq_ix2 i⟩
  show (val_main_v8 (F := Ideal) (ix2 p q) - z (ix2 p q))
        * (Host.dotGeneral (F := Ideal) (φ₁ := .f32) (φ₂ := .f32) dot_S50000x256_S256x128_S50000x128_1_0_0_1_n_n none mean Wl (ix2 p q)
          + val_main_v2 (F := Ideal) bl (ix2 p q)
          + Host.dotGeneral (F := Ideal) (φ₁ := .f32) (φ₂ := .f32) dot_S50000x256_S256x128_S50000x128_1_0_0_1_n_n none xc Wr (ix2 p q))
        + z (ix2 p q) * h (ix2 p q)
    = blendAt mean xc z h Wl Wr (fun q => bl (ix1 q)) p q
  rw [(val_main_v8_apply (F := Ideal) (ix2 p q)).trans (val_main_cst_apply (F := Ideal) _), bias_at,
    dotGeneral_apply rc256, dotGeneral_apply rc256]
  rfl

/-- THE REFERENCE'S RESULT: the blend of the neighbour mean of the candidate input, that input, the update gate and
    h. -/
theorem result_stage (x0 : FVec Ideal S50000x128 .f32) (x1 : IVec S2x800000 32) (x2 : FVec Ideal S50000x128 .f32) (x3 : FVec Ideal S128x128 .f32)
    (x4 : FVec Ideal S128 .f32) (x5 x6 : FVec Ideal S128x128 .f32) (x7 : FVec Ideal S128 .f32) (x8 : FVec Ideal S128x128 .f32) (x9 : FVec Ideal S256x128 .f32)
    (x10 : FVec Ideal S128 .f32) (x11 : FVec Ideal S256x128 .f32) :
    val_main_v59 (F := Ideal) x0 x1 x2 x3 x4 x5 x6 x7 x8 x9 x10 x11
      = blend (nbrMean (joined x0 (gate x0 x2 x3 x5 (fun q => x4 (ix1 q))) x2) x1)
          (joined x0 (gate x0 x2 x3 x5 (fun q => x4 (ix1 q))) x2)
          (gate x0 x2 x6 x8 (fun q => x7 (ix1 q))) x2 x9 x11 (fun q => x10 (ix1 q)) := by
  have h0 : val_main_v59 (F := Ideal) x0 x1 x2 x3 x4 x5 x6 x7 x8 x9 x10 x11
      = blend (val_main_v48 (F := Ideal) x0 x1 x2 x3 x4 x5) (val_main_v25 (F := Ideal) x0 x2 x3 x4 x5)
          (val_main_v23 (F := Ideal) x0 x2 x6 x7 x8) x2 x9 x11 (fun q => x10 (ix1 q)) :=
    blend_host (val_main_v48 (F := Ideal) x0 x1 x2 x3 x4 x5) (val_main_v25 (F := Ideal) x0 x2 x3 x4 x5)
      (val_main_v23 (F := Ideal) x0 x2 x6 x7 x8) x2 x9 x11 x10
  rw [h0, mean_stage, candidate_input, update_gate]

end Cert.ReferenceIdeal.Stages

end
-- ==== Proof.lean ====
/-
  A gated recurrent update over a graph, computed in two tiled passes, equals its whole-array definition.

  THE TWO PROGRAMS. For node features x and a previous state h (50000 nodes, 128 columns each), an edge list e of
  800000 (source, destination) pairs, weight matrices and bias vectors, both programs compute

    r  = σ(x·W_xr + b_xr + h·W_hr),   z = σ(x·W_xz + b_xz + h·W_hz),   xc = [ x | r ⊙ h ],
    mean = the average, over the edges into each node, of xc's rows at the edges' source nodes (divided by one at a
           node with no incoming edge),
    out = (1 − z) ⊙ (mean·W_l + b_l + xc·W_r) + z ⊙ h.

  The reference does this with whole-array host operations. The kernel's program computes z and xc in a first
  pallas_call, ten blocks of 5000 nodes, takes the mean with the same host operations as the reference, and
  computes out in a second pallas_call, again ten blocks of 5000 nodes; before each matrix product it rounds the
  operands to bf16, which on the extended reals is the identity.

  WHY THEY AGREE. Everything except the mean is row-local: row p of r, z, xc and out depends only on row p of the
  operands with one row per node (and on the whole weights and biases), so a block of rows of the result is the
  same map applied to that block of rows of the operands, and the ten blocks cover the array (GatedUpdate.lean,
  GatesRegion.lean, BlendRegion.lean). A matrix unit's product into a zero accumulator and the host's dot_general
  are the same sum of products; the logistic operation and the host's 1 / (1 + e^(−u)) are the same function on every
  extended real, the f32 word of one being the number 1 (BodyValues.lean, ReferenceStages.lean). The mean is the
  same operations applied to the same array xc and the same edge list on both sides; it is carried as one function
  and never opened. No step uses that the inputs are finite: both sides are the same operations in the same order
  on equal operands, so the precondition is not opened.

  THE CLAIMS. The two kernel programs' frames are the generated ones; the reference's is its generated run with the
  result dropped; the idealization rewrote nothing, so `preserves` is `True`; `algebraic` puts the kernel's run
  (KernelValue.lean) beside the reference's generated run read through its stages (ReferenceStages.lean).
-/
import proofs.«103373_j38147899523553_1_alg».proof.Defs
import proofs.«103373_j38147899523553_1_alg».proof.Proof.Gen.Kernel
import proofs.«103373_j38147899523553_1_alg».proof.Proof.Gen.Kernel.Frame
import proofs.«103373_j38147899523553_1_alg».proof.Proof.Gen.KernelIdeal
import proofs.«103373_j38147899523553_1_alg».proof.Proof.Gen.KernelIdeal.Frame
import proofs.«103373_j38147899523553_1_alg».proof.Proof.Gen.ReferenceIdeal
import proofs.«103373_j38147899523553_1_alg».proof.Proof.Gen.ReferenceIdeal.Run
import proofs.«103373_j38147899523553_1_alg».proof.Proof.Gen.ReferenceIdeal.Read
import proofs.«103373_j38147899523553_1_alg».proof.Proof.Gen.Pre_finite_inputs
import proofs.«103373_j38147899523553_1_alg».proof.Proof.KernelValue
import proofs.«103373_j38147899523553_1_alg».proof.Proof.ReferenceStages
import Idealize.ShloMosaic.Adequacy
import Idealize.ShloMosaic.Init

set_option maxRecDepth 16384

noncomputable section

namespace Cert.Proof

open Idealize.ShloMosaic Idealize.ShloMosaic.TcCoe Idealize.SL.Sem

/-- The neighbour mean is spelt with the same operations in both programs: one function. -/
theorem mean_same (xc : FVec Ideal Cert.KernelIdeal.S50000x256 .f32) (e : IVec Cert.KernelIdeal.S2x800000 32) :
    Cert.ReferenceIdeal.Stages.nbrMean xc e = Cert.KernelIdeal.Between.nbrMean xc e := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the twelve arguments both programs end with the result buffer at the whole update
    of those arguments: the kernel by its two-pass run, the reference by its run read through its stages. -/
theorem algebraic : Cert.algebraic_KernelIdeal_ReferenceIdeal := by
  intro m ρ m' ρ' _ hagree
  refine ⟨fun c => Cert.KernelIdeal.Whole.resultOf m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v59_eq, h0, h1, h2, h3, h4, h5, h6, h7, h8, h9, h10, h11, Cert.ReferenceIdeal.Stages.result_stage, mean_same]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
